-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S1 : Shape := ⟨1, ![1]⟩
abbrev S8192x4x2048 : Shape := ⟨3, ![8192, 4, 2048]⟩
abbrev S_ : Shape := ⟨0, ![]⟩
abbrev S8192x4 : Shape := ⟨2, ![8192, 4]⟩

class Facts : Prop where
  shapeCasts_S8192x8192_S8192x4x2048 : S8192x8192.ShapeCasts S8192x4x2048
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S1 : S_.BroadcastsInDim S1 (![] : Fin 0 → Fin S1.rank)
  reducesTo_S1_S_d0 : S1.ReducesTo [0] S_
  reducesTo_S8192x4x2048_S8192x4_d2 : S8192x4x2048.ReducesTo [2] S8192x4
  bcast_S_S8192x4 : S_.BroadcastsInDim S8192x4 (![] : Fin 0 → Fin S8192x4.rank)
  reducesTo_S8192x4_S_d0_1 : S8192x4.ReducesTo [0, 1] S_

variable [Facts]

def fn {F : FTy → Type} [FloatOps F] (main_arg0 : FVec F S8192x8192 .f32) (main_arg1 : FVec F S1 .f32) : IVec S_ 1 :=
  let main_v0 : FVec F S8192x4x2048 .f32 := shapeCast S8192x4x2048 main_arg0 shapeCasts_S8192x8192_S8192x4x2048
  let main_v1 : FVec F S8192x8192 .f32 := Host.absf main_arg0
  let main_cst : FVec F S_ .f32 := constant S_ .f32 0x7F800000#32
  let main_v2 : FVec F S8192x8192 .f32 := broadcastInDim S8192x8192 ![] bcast_S_S8192x8192 main_cst
  let main_v3 : IVec S8192x8192 1 := cmpf .olt main_v1 main_v2
  let main_c : IVec S_ 1 := constantI S_ 1 1#1
  let main_v4 : IVec S_ 1 := (fun x v => Host.reduce IntOp.andi x v reducesTo_S8192x8192_S_d0_1 h_S_) main_v3 main_c
  let main_v5 : FVec F S1 .f32 := Host.absf main_arg1
  let main_cst_0 : FVec F S_ .f32 := constant S_ .f32 0x7F800000#32
  let main_v6 : FVec F S1 .f32 := broadcastInDim S1 ![] bcast_S_S1 main_cst_0
  let main_v7 : IVec S1 1 := cmpf .olt main_v5 main_v6
  let main_c_1 : IVec S_ 1 := constantI S_ 1 1#1
  let main_v8 : IVec S_ 1 := (fun x v => Host.reduce IntOp.andi x v reducesTo_S1_S_d0 h_S_) main_v7 main_c_1
  let main_v9 : IVec S_ 1 := andi main_v4 main_v8
  let main_v10 : FVec F S8192x4x2048 .f32 := mulf main_v0 main_v0
  let main_cst_2 : FVec F S_ .f32 := constant S_ .f32 0x00000000#32
  let main_v11 : FVec F S8192x4 .f32 := (fun x v => Host.reduceAdd x v reducesTo_S8192x4x2048_S8192x4_d2 h_S_) main_v10 main_cst_2
  let main_cst_3 : FVec F S_ .f32 := constant S_ .f32 0x00000000#32
  let main_v12 : FVec F S8192x4 .f32 := broadcastInDim S8192x4 ![] bcast_S_S8192x4 main_cst_3
  let main_v13 : IVec S8192x4 1 := cmpf .ogt main_v11 main_v12
  let main_c_4 : IVec S_ 1 := constantI S_ 1 1#1
  let main_v14 : IVec S_ 1 := (fun x v => Host.reduce IntOp.andi x v reducesTo_S8192x4_S_d0_1 h_S_) main_v13 main_c_4
  let main_v15 : IVec S_ 1 := andi main_v9 main_v14
  main_v15
-- ==== Kernel.lean ====
abbrev S8192x8192 : Shape := ⟨2, ![8192, 8192]⟩
abbrev S1 : Shape := ⟨1, ![1]⟩
abbrev S2x4x2048 : Shape := ⟨3, ![2, 4, 2048]⟩
abbrev S256x8192 : Shape := ⟨2, ![256, 8192]⟩
abbrev S1x4x2048 : Shape := ⟨3, ![1, 4, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1x2048 : Shape := ⟨2, ![1, 2048]⟩
abbrev S4x2048 : Shape := ⟨2, ![4, 2048]⟩
abbrev S_ : Shape := ⟨0, ![]⟩
abbrev S2048x4 : Shape := ⟨2, ![2048, 4]⟩
abbrev S4x4 : Shape := ⟨2, ![4, 4]⟩

abbrev nBuf : Space → Nat
  | .hbm => 32
  | .vmem => 4
  | .smem => 0
  | _ => 0

abbrev bufTy : (tb : Table) → Fin (tcTables nBuf tb) → BufTy
  | .hbm, ⟨0, _⟩ => ⟨S8192x8192, .f32⟩
  | .hbm, ⟨1, _⟩ => ⟨S1, .f32⟩
  | .hbm, ⟨2, _⟩ => ⟨S2x4x2048, .f32⟩
  | .hbm, ⟨3, _⟩ => ⟨S_, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S2048x4, .f32⟩
  | .hbm, ⟨9, _⟩ => ⟨S4x4, .f32⟩
  | .hbm, ⟨10, _⟩ => ⟨S_, .f32⟩
  | .hbm, ⟨11, _⟩ => ⟨S_, .f32⟩
  | .hbm, ⟨12, _⟩ => ⟨S4x4, .i32⟩
  | .hbm, ⟨13, _⟩ => ⟨S4x4, .i32⟩
  | .hbm, ⟨14, _⟩ => ⟨S_, .i32⟩
  | .hbm, ⟨15, _⟩ => ⟨S4x4, .i32⟩
  | .hbm, ⟨16, _⟩ => ⟨S4x4, .i32⟩
  | .hbm, ⟨17, _⟩ => ⟨S4x4, .i1⟩
  | .hbm, ⟨18, _⟩ => ⟨S_, .f32⟩
  | .hbm, ⟨19, _⟩ => ⟨S4x4, .f32⟩
  | .hbm, ⟨20, _⟩ => ⟨S4x4, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S1, .f32⟩
  | .local _ .vmem, ⟨0, _⟩ => ⟨S256x8192, .f32⟩
  | .local _ .vmem, ⟨1, _⟩ => ⟨S256x8192, .f32⟩
  | .local _ .vmem, ⟨2, _⟩ => ⟨S1x4x2048, .f32⟩
  | .local _ .vmem, ⟨3, _⟩ => ⟨S1x4x2048, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_c : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_cst : Ref sig .tc := ⟨.hbm, 18, rfl⟩
abbrev main_call0_v5 : Ref sig .tc := ⟨.hbm, 19, rfl⟩
abbrev main_call0_v6 : Ref sig .tc := ⟨.hbm, 20, rfl⟩
abbrev main_call0_cst_0 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_cst_4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x4x2048_S1x4x2048_0_0_0 : ∀ a, (![0, 0, 0] : Fin 3 → Nat) a + S1x4x2048.size a ≤ S1x4x2048.size a
  h_S1x4x2048 : 0 < S1x4x2048.numel
  inb_S256x8192_S256x2048_0_0 : ∀ a, (![0, 0] : Fin 2 → Nat) a + S256x2048.size a ≤ S256x8192.size a
  h_S256x2048 : 0 < S256x2048.numel
  reduces_S256x2048_S256 : S256x2048.Reduces [1] S256
  shapeCasts_S256_S256x1 : S256.ShapeCasts S256x1
  broadcasts_S256x1_S256x2048 : S256x1.Broadcasts S256x2048
  reduces_S256x2048_S2048 : S256x2048.Reduces [0] S2048
  shapeCasts_S2048_S1x2048 : S2048.ShapeCasts S1x2048
  inb_S256x8192_S256x2048_0_2048 : ∀ a, (![0, 2048] : Fin 2 → Nat) a + S256x2048.size a ≤ S256x8192.size a
  inb_S256x8192_S256x2048_0_4096 : ∀ a, (![0, 4096] : Fin 2 → Nat) a + S256x2048.size a ≤ S256x8192.size a
  inb_S256x8192_S256x2048_0_6144 : ∀ a, (![0, 6144] : Fin 2 → Nat) a + S256x2048.size a ≤ S256x8192.size a
  concatenates_S1x2048_S1x2048_S1x2048_S1x2048_S4x2048_d0 : Shape.Concatenates [S1x2048, S1x2048, S1x2048, S1x2048] S4x2048 0
  shapeCasts_S1x4x2048_S1x4x2048 : S1x4x2048.ShapeCasts S1x4x2048
  shapeCasts_S4x2048_S1x4x2048 : S4x2048.ShapeCasts S1x4x2048
  reducesTo_S2x4x2048_S4x2048_d0 : S2x4x2048.ReducesTo [0] S4x2048
  h_S_ : 0 < S_.numel
  bcast_S_S4x2048 : S_.BroadcastsInDim S4x2048 (![] : Fin 0 → Fin S4x2048.rank)
  transposes_S4x2048_S2048x4_1_0 : S4x2048.Transposes [1, 0] S2048x4
  reducesTo_S4x4_S_d0_1 : S4x4.ReducesTo [0, 1] S_
  bcast_S_S4x4 : S_.BroadcastsInDim S4x4 (![] : Fin 0 → Fin S4x4.rank)
  bcast_S_S1 : S_.BroadcastsInDim S1 (![] : Fin 0 → Fin S1.rank)
  dot_S4x2048_S2048x4_S4x4_1_0_0_1_n_n_wf : DotDims.WF S4x2048 S2048x4 S4x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x2048.size a ≤ S2x4x2048.size a
  hwx0_1 : ∀ i : grid0.Coords, EltTy.bits .f32 = 32 ∨ (Rect.block (s := S2x4x2048) S1x4x2048.size (cc0_transform_1 i) (hinb0_1 i)).WholeWords (EltTy.packing .f32)

variable [Facts₀]

def dot_S4x2048_S2048x4_S4x4_1_0_0_1_n_n : DotDims S4x2048 S2048x4 S4x4 where
  lhsContracting := [1]
  rhsContracting := [0]
  lhsNonContracting := [0]
  rhsNonContracting := [1]
  lhsBatch := []
  rhsBatch := []
  wf := dot_S4x2048_S2048x4_S4x4_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S1 : Shape := ⟨1, ![1]⟩
abbrev S8192x4x2048 : Shape := ⟨3, ![8192, 4, 2048]⟩
abbrev S_ : Shape := ⟨0, ![]⟩
abbrev S8192x4 : Shape := ⟨2, ![8192, 4]⟩
abbrev S8192x4x1 : Shape := ⟨3, ![8192, 4, 1]⟩
abbrev S4x2048 : Shape := ⟨2, ![4, 2048]⟩
abbrev S2048x4 : Shape := ⟨2, ![2048, 4]⟩
abbrev S4x4 : Shape := ⟨2, ![4, 4]⟩

abbrev nBuf : Space → Nat
  | .hbm => 39
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S1, .f32⟩
  | .hbm, ⟨2, _⟩ => ⟨S8192x4x2048, .f32⟩
  | .hbm, ⟨3, _⟩ => ⟨S8192x4x2048, .f32⟩
  | .hbm, ⟨4, _⟩ => ⟨S_, .f32⟩
  | .hbm, ⟨5, _⟩ => ⟨S8192x4, .f32⟩
  | .hbm, ⟨6, _⟩ => ⟨S8192x4x1, .f32⟩
  | .hbm, ⟨7, _⟩ => ⟨S8192x4x1, .f32⟩
  | .hbm, ⟨8, _⟩ => ⟨S8192x4x2048, .f32⟩
  | .hbm, ⟨9, _⟩ => ⟨S8192x4x2048, .f32⟩
  | .hbm, ⟨10, _⟩ => ⟨S_, .f32⟩
  | .hbm, ⟨11, _⟩ => ⟨S4x2048, .f32⟩
  | .hbm, ⟨12, _⟩ => ⟨S_, .f32⟩
  | .hbm, ⟨13, _⟩ => ⟨S4x2048, .f32⟩
  | .hbm, ⟨14, _⟩ => ⟨S4x2048, .f32⟩
  | .hbm, ⟨15, _⟩ => ⟨S2048x4, .f32⟩
  | .hbm, ⟨16, _⟩ => ⟨S4x4, .f32⟩
  | .hbm, ⟨17, _⟩ => ⟨S_, .f32⟩
  | .hbm, ⟨18, _⟩ => ⟨S_, .f32⟩
  | .hbm, ⟨19, _⟩ => ⟨S4x4, .i32⟩
  | .hbm, ⟨20, _⟩ => ⟨S4x4, .i32⟩
  | .hbm, ⟨21, _⟩ => ⟨S_, .i32⟩
  | .hbm, ⟨22, _⟩ => ⟨S4x4, .i32⟩
  | .hbm, ⟨23, _⟩ => ⟨S4x4, .i32⟩
  | .hbm, ⟨24, _⟩ => ⟨S4x4, .i1⟩
  | .hbm, ⟨25, _⟩ => ⟨S_, .f32⟩
  | .hbm, ⟨26, _⟩ => ⟨S4x4, .f32⟩
  | .hbm, ⟨27, _⟩ => ⟨S4x4, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1, .f32⟩
  | .hbm, ⟨38, _⟩ => ⟨S1, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_call1_v0 : Ref sig .tc := ⟨.hbm, 19, rfl⟩
abbrev main_call1_v1 : Ref sig .tc := ⟨.hbm, 20, rfl⟩
abbrev main_call1_c : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_cst : Ref sig .tc := ⟨.hbm, 25, rfl⟩
abbrev main_call1_v5 : Ref sig .tc := ⟨.hbm, 26, rfl⟩
abbrev main_call1_v6 : Ref sig .tc := ⟨.hbm, 27, rfl⟩
abbrev main_call1_cst_0 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_cst_4 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩

abbrev nD : Nat := 1
abbrev τ : Topo := Topo.v7x

variable {F : FTy → Type} [FloatOps F]

class Facts₀ : Prop where
  shapeCasts_S8192x8192_S8192x4x2048 : S8192x8192.ShapeCasts S8192x4x2048
  reducesTo_S8192x4x2048_S8192x4_d2 : S8192x4x2048.ReducesTo [2] S8192x4
  h_S_ : 0 < S_.numel
  bcast_S8192x4_S8192x4x1_0_1 : S8192x4.BroadcastsInDim S8192x4x1 (![0, 1] : Fin 2 → Fin S8192x4x1.rank)
  bcast_S8192x4x1_S8192x4x2048_0_1_2 : S8192x4x1.BroadcastsInDim S8192x4x2048 (![0, 1, 2] : Fin 3 → Fin S8192x4x2048.rank)
  reducesTo_S8192x4x2048_S4x2048_d0 : S8192x4x2048.ReducesTo [0] S4x2048
  bcast_S_S4x2048 : S_.BroadcastsInDim S4x2048 (![] : Fin 0 → Fin S4x2048.rank)
  transposes_S4x2048_S2048x4_1_0 : S4x2048.Transposes [1, 0] S2048x4
  reducesTo_S4x4_S_d0_1 : S4x4.ReducesTo [0, 1] S_
  bcast_S_S4x4 : S_.BroadcastsInDim S4x4 (![] : Fin 0 → Fin S4x4.rank)
  bcast_S_S1 : S_.BroadcastsInDim S1 (![] : Fin 0 → Fin S1.rank)
  dot_S4x2048_S2048x4_S4x4_1_0_0_1_n_n_wf : DotDims.WF S4x2048 S2048x4 S4x4 [1] [0] [0] [1] [] []

variable [Facts₀]

def dot_S4x2048_S2048x4_S4x4_1_0_0_1_n_n : DotDims S4x2048 S2048x4 S4x4 where
  lhsContracting := [1]
  rhsContracting := [0]
  lhsNonContracting := [0]
  rhsNonContracting := [1]
  lhsBatch := []
  rhsBatch := []
  wf := dot_S4x2048_S2048x4_S4x4_1_0_0_1_n_n_wf

class Facts : Prop extends Facts₀ where

variable [Facts]
-- ==== Proof.Spec.lean ====
/-
  The mathematics both programs compute, stated once over the extended reals.

  The input is an 8192 × 8192 matrix read as 8192 rows of four parts of 2048 entries; entry `d` of part `p` of row `b`
  sits in column `2048·p + d`.  Each part of each row is divided by its Euclidean norm and the normalised rows are summed
  over the rows, giving a 4 × 2048 array.  One program multiplies by the reciprocal square root of the sum of squares,
  the other divides by the square root of the sum of squares; wherever the sum of squares is positive the two quotients
  are one extended real, whatever the entry.  What follows the row sum is the same for both programs: the mean over
  the rows, the 4 × 4 matrix of inner products of the mean's rows, its entry sum and its trace, and an affine
  combination of those two scaled by the second input.
-/
import Idealize.ShloMosaic.PureOps
import Idealize.ShloMosaic.PureOps.Ideal
import Idealize.ShloMosaic.PureOps.Ideal.Laws
import Idealize.ShloMosaic.Lib.ValueIdx

noncomputable section

namespace Cert.NormSum

open Idealize.ShloMosaic Idealize.ShloMosaic.ValueIdx

abbrev SX : Shape := ⟨2, ![8192, 8192]⟩
abbrev S4x2048 : Shape := ⟨2, ![4, 2048]⟩
abbrev S2048x4 : Shape := ⟨2, ![2048, 4]⟩
abbrev S4x4 : Shape := ⟨2, ![4, 4]⟩
abbrev S_ : Shape := ⟨0, ![]⟩
abbrev S1 : Shape := ⟨1, ![1]⟩

/-! ## The normalised row sum -/

/-- The column of entry `k` of part `p`. -/
def col (p : Fin 4) (k : Fin 2048) : Fin 8192 := ⟨p.val * 2048 + k.val, by omega⟩

theorem col_val (p : Fin 4) (k : Fin 2048) : (col p k).val = p.val * 2048 + k.val := rfl

/-- The sum of squares of part `p` of row `b`. -/
def ss (x : SX.Idx → EReal) (b : Fin 8192) (p : Fin 4) : EReal :=
  ∑ k : Fin 2048, x (ix2 b (col p k)) * x (ix2 b (col p k))

/-- Summed over the rows: each entry times the reciprocal square root of its part's sum of squares. -/
def sumScaled (x : SX.Idx → EReal) : S4x2048.Idx → EReal :=
  fun j => ∑ b : Fin 8192, x (ix2 b (col (j 0) (j 1))) * Ideal.rsqrt (ss x b (j 0))

/-- Summed over the rows: each entry divided by the square root of its part's sum of squares. -/
def sumDivided (x : SX.Idx → EReal) : S4x2048.Idx → EReal :=
  fun j => ∑ b : Fin 8192, Ideal.div (x (ix2 b (col (j 0) (j 1)))) (Ideal.sqrt (ss x b (j 0)))

/-- For a positive extended real `s` (the top element included), multiplying by `1/√s` is dividing by `√s`: at the top
    both sides are `a · 0`; at a positive real `√s` is a nonzero real and the quotient is the product with its inverse. -/
theorem mul_rsqrt_eq_div_sqrt (a s : EReal) (hs : 0 < s) : a * Ideal.rsqrt s = Ideal.div a (Ideal.sqrt s) := by
  induction s using EReal.rec with
  | bot => exact absurd hs (by simp)
  | top =>
    rw [Ideal.rsqrt_top, Ideal.sqrt_top, Ideal.div, if_neg (by simp), EReal.inv_top]
  | coe r =>
    have hr : 0 < r := by exact_mod_cast hs
    have hq : Real.sqrt r ≠ 0 := (Real.sqrt_pos.mpr hr).ne'
    rw [Ideal.rsqrt_coe, if_neg (not_lt.mpr hr.le), if_neg hr.ne', Ideal.sqrt_coe, if_neg (not_lt.mpr hr.le),
      Ideal.div, if_neg (by exact_mod_cast hq), EReal.coe_inv]

/-- Where every part of every row has a positive sum of squares the two row sums are equal. -/
theorem sumScaled_eq_sumDivided (x : SX.Idx → EReal) (h : ∀ b p, 0 < ss x b p) : sumScaled x = sumDivided x :=
  funext fun j => Finset.sum_congr rfl fun b _ => mul_rsqrt_eq_div_sqrt _ _ (h b (j 0))

/-! ## What both programs do with the row sum -/

theorem h_S_ : 0 < S_.numel := by decide
theorem bcast_S_S4x2048 : S_.BroadcastsInDim S4x2048 (![] : Fin 0 → Fin S4x2048.rank) := by decide
theorem transposes_S4x2048_S2048x4_1_0 : S4x2048.Transposes [1, 0] S2048x4 := by decide
theorem reducesTo_S4x4_S_d0_1 : S4x4.ReducesTo [0, 1] S_ := by decide
theorem bcast_S_S4x4 : S_.BroadcastsInDim S4x4 (![] : Fin 0 → Fin S4x4.rank) := by decide
theorem bcast_S_S1 : S_.BroadcastsInDim S1 (![] : Fin 0 → Fin S1.rank) := by decide
theorem dot_wf : DotDims.WF S4x2048 S2048x4 S4x4 [1] [0] [0] [1] [] [] := by decide

/-- The contraction of the 4 × 2048 mean with its transpose. -/
def dot : DotDims S4x2048 S2048x4 S4x4 where
  lhsContracting := [1]
  rhsContracting := [0]
  lhsNonContracting := [0]
  rhsNonContracting := [1]
  lhsBatch := []
  rhsBatch := []
  wf := dot_wf

/-- The mean over the 8192 rows. -/
def mean (raw : FVec Ideal S4x2048 .f32) : FVec Ideal S4x2048 .f32 :=
  Host.divf raw (broadcastInDim S4x2048 ![] bcast_S_S4x2048 (constant (F := Ideal) S_ .f32 0x46000000#32))

/-- The 4 × 4 matrix of inner products of the mean's rows. -/
def gram (raw : FVec Ideal S4x2048 .f32) : FVec Ideal S4x4 .f32 :=
  Host.dotGeneral dot none (mean raw) (transpose S2048x4 [1, 0] (mean raw) transposes_S4x2048_S2048x4_1_0)

/-- The sum of the matrix's entries. -/
def total (g : FVec Ideal S4x4 .f32) : FVec Ideal S_ .f32 :=
  Host.reduceAdd g (constant (F := Ideal) S_ .f32 0x00000000#32) reducesTo_S4x4_S_d0_1 h_S_

/-- Its trace: the entries off the diagonal replaced by zero, then summed. -/
def diagSum (g : FVec Ideal S4x4 .f32) : FVec Ideal S_ .f32 :=
  Host.reduceAdd
    (select
      (cmpi .eq (addi (iotaInDim S4x4 32 0) (broadcastInDim S4x4 ![] bcast_S_S4x4 (constantI S_ 32 0#32))) (iotaInDim S4x4 32 1))
      g
      (broadcastInDim S4x4 ![] bcast_S_S4x4 (constant (F := Ideal) S_ .f32 0x00000000#32)))
    (constant (F := Ideal) S_ .f32 0x00000000#32) reducesTo_S4x4_S_d0_1 h_S_

/-- `(total − 3 · trace + 8) / 2`, times the second input. -/
def scaled (tot tr : FVec Ideal S_ .f32) (γ : FVec Ideal S1 .f32) : FVec Ideal S1 .f32 :=
  mulf
    (broadcastInDim S1 ![] bcast_S_S1
      (Host.divf
        (addf (subf tot (mulf (constant (F := Ideal) S_ .f32 0x40400000#32) tr)) (constant (F := Ideal) S_ .f32 0x41000000#32))
        (constant (F := Ideal) S_ .f32 0x40000000#32)))
    γ

/-- Everything after the row sum. -/
def fromRowSum (raw : FVec Ideal S4x2048 .f32) (γ : FVec Ideal S1 .f32) : FVec Ideal S1 .f32 :=
  scaled (total (gram raw)) (diagSum (gram raw)) γ

end Cert.NormSum

end
-- ==== Proof.PrePositive.lean ====
/-
  What the precondition says about the sums of squares.

  The input is an 8192 × 8192 matrix read as 8192 rows of four parts of 2048 entries.  The last clause of the
  precondition reshapes the matrix to 8192 × 4 × 2048, squares it entry by entry, sums the squares over the last axis
  starting from zero, compares every one of the 8192 × 4 sums with zero, and demands that all comparisons hold.
  Entry (b, p, k) of the reshaped array has the same row-major position as entry (b, 2048·p + k) of the matrix,
  because b·8192 + (2048·p + k) = (4·b + p)·2048 + k.  Hence the sum at (b, p) is exactly the sum of squares of part p
  of row b, and the precondition makes each of them strictly positive.
-/
import proofs.«123349_j86526411145660_2_alg».proof.Proof.Gen.Pre_finite_inputs
import proofs.«123349_j86526411145660_2_alg».proof.Proof.Spec
import Idealize.ShloMosaic.Lib.ReduceAll
import Idealize.ShloMosaic.Lib.IdealHost
import Idealize.ShloMosaic.Lib.ValueIdx
import Idealize.ShloMosaic.Lib.Pipeline.Value
import Idealize.ShloMosaic.PureOps.Ideal.Laws

noncomputable section

namespace Cert.Proof.PrePositive

open Idealize.ShloMosaic Idealize.ShloMosaic.ValueIdx Cert.Pre_finite_inputs

/-- The scalar shape has one index. -/
instance : Subsingleton S_.Idx := ⟨fun a b => funext fun d => d.elim0⟩

/-- Removing the last axis of 8192 × 4 × 2048 leaves 8192 × 4. -/
theorem reduces_last : S8192x4x2048.Reduces [2] S8192x4 := by decide

/-- Entry (b, p, k) of the reshaped array is entry (b, 2048·p + k) of the matrix: the two row-major positions are
    b·8192 + (2048·p + k) and (4·b + p)·2048 + k. -/
theorem reshaped_apply (x : FVec Ideal S8192x8192 .f32) (b : Fin 8192) (p : Fin 4) (k : Fin 2048) :
    shapeCast S8192x4x2048 x Facts.shapeCasts_S8192x8192_S8192x4x2048 (ix3 b p k) = x (ix2 b (Cert.NormSum.col p k)) := by
  refine shapeCast_apply x _ _ _ ?_
  rw [Shape.rowMajor_val_two, Shape.rowMajor_val_three]
  show b.val * 8192 + (p.val * 2048 + k.val) = (b.val * 4 + p.val) * 2048 + k.val
  omega

/-- The index over (b, p) whose last coordinate is k. -/
theorem lift_eq (b : Fin 8192) (p : Fin 4) (k : Fin 2048) :
    reduces_last.lift (ix2 b p) k = ix3 b p k := by
  funext c
  refine Fin.ext ?_
  match c with
  | ⟨0, _⟩ => rfl
  | ⟨1, _⟩ => rfl
  | ⟨2, _⟩ => rfl

/-- A comparison "greater than zero" that came out true says the number is positive. -/
theorem pos_of_cmp_gt (s : EReal) (hs : Ideal.cmp .ogt s 0 = 1#1) : 0 < s := by
  unfold Ideal.cmp at hs
  by_contra hn
  simp [hn] at hs

/-- Under the precondition every part of every row has a positive sum of squares. -/
theorem ss_pos (x : FVec Ideal Cert.Pre_finite_inputs.S8192x8192 .f32) (g : FVec Ideal Cert.Pre_finite_inputs.S1 .f32)
    (h : Cert.Pre_finite_inputs.fn (F := Ideal) x g = fun _ => 1#1) :
    ∀ (b : Fin 8192) (p : Fin 4), 0 < Cert.NormSum.ss x b p := by
  intro b p
  have h0 := congrFun h ValueIdx.ix0
  dsimp only [Cert.Pre_finite_inputs.fn] at h0
  have h1 := (IntOp.andi_eq_one.1 h0).2
  have h2 := Host.reduce_andi_all _ _ _ _ _ h1 (ix2 b p)
  rw [cmpf_apply, Ideal.cmpf_def, broadcastInDim_scalar_apply, constant_apply, Ideal.ofBits_zero_f32,
    hostReduceAdd_apply, Ideal.hostReduceAdd_single _ reduces_last, constant_apply, Ideal.ofBits_zero_f32,
    zero_add] at h2
  have e : ∀ k : Fin 2048,
      mulf (shapeCast S8192x4x2048 x Facts.shapeCasts_S8192x8192_S8192x4x2048)
          (shapeCast S8192x4x2048 x Facts.shapeCasts_S8192x8192_S8192x4x2048) (reduces_last.lift (ix2 b p) k)
        = x (ix2 b (Cert.NormSum.col p k)) * x (ix2 b (Cert.NormSum.col p k)) := by
    intro k
    rw [lift_eq, mulf_apply, reshaped_apply]
  unfold Cert.NormSum.ss
  exact lt_of_lt_of_eq (pos_of_cmp_gt _ h2) (Finset.sum_congr rfl fun k _ => e k)

end Cert.Proof.PrePositive

end
-- ==== Proof.KernelBody.lean ====
/-
  What one grid point leaves in the output block.

  The kernel walks a 2 × 16 grid; at point (c, i) it sees the 256 × 8192 tile of rows 256·(16c + i) … of the input and the
  1 × 4 × 2048 output block of core c.  The tile is read as four 256 × 2048 parts (columns 0, 2048, 4096, 6144 onwards);
  each part is scaled row by row by the reciprocal square root of the row's sum of squares and summed down its 256
  rows, and the four row vectors so obtained are stacked and added to the block.  At i = 0 the block is first reset to
  zero.  So a point's effect on the block is ONE function `step` of the tile and the block's previous contents, taken
  from the zero block at i = 0 and from what the point before left otherwise.
-/
import proofs.«123349_j86526411145660_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KValue

open Cert.KernelIdeal Cert.KernelIdeal.Gen

variable {F : FTy → Type} [FloatOps F]

theorem hz3 : (![0, 0, 0] : Fin 3 → Nat) = fun _ => 0 := funext fun a => by fin_cases a <;> rfl

/-- The block after a point: the previous contents `xo` plus the four parts' scaled column sums of the tile `x`. -/
def step (x : Vec F S256x8192 .f32) (xo : Vec F S1x4x2048 .f32) : Vec F S1x4x2048 .f32 :=
  k0_pay1 (k0_pay3 (View.ld x (Rect.unit ![0, 0] ![256, 2048] inb_S256x8192_S256x2048_0_0)))
    (k0_pay4 (View.ld x (Rect.unit ![0, 2048] ![256, 2048] inb_S256x8192_S256x2048_0_2048)))
    (k0_pay5 (View.ld x (Rect.unit ![0, 4096] ![256, 2048] inb_S256x8192_S256x2048_0_4096)))
    (k0_pay6 (View.ld x (Rect.unit ![0, 6144] ![256, 2048] inb_S256x8192_S256x2048_0_6144))) xo

/-- A point that is not the first of its core adds to what the point before left. -/
theorem out_B (c : Dev nD) (i : grid0.Coords) (a2 : Memref sig .tc .vmem S256x8192 .f32) (h2 : a2.IsWhole)
    (a3 : Memref sig .tc .vmem S1x4x2048 .f32) (h3 : a3.IsWhole) (hc : ¬cond0_0 i) (x : Vec F S256x8192 .f32)
    (xo : Vec F S1x4x2048 .f32) : out0_B_1 c i a2 h2 a3 h3 hc x xo = step x xo := by
  unfold out0_B_1
  rw [View.read_writes_eq_canon _ _ _ (cover0_B_1 c i a2 h2 a3 h3 hc x xo)]
  unfold kernelRun0_B
  dsimp only
  sl_unfold_words
  rw [View.canon_unit_zero hz3]
  simp only [View.readAt_eq_ld, h2.read_unread, h3.read_unread, View.ld_unit_zero (S := S1x4x2048) hz3]
  rfl

/-- The first point of a core stores the zero block, reads it back and adds to it. -/
theorem out_A (c : Dev nD) (i : grid0.Coords) (a2 : Memref sig .tc .vmem S256x8192 .f32) (h2 : a2.IsWhole)
    (a3 : Memref sig .tc .vmem S1x4x2048 .f32) (h3 : a3.IsWhole) (hc : cond0_0 i) (x : Vec F S256x8192 .f32) :
    out0_A_1 c i a2 h2 a3 h3 hc x = step x k0_pay2 := by
  unfold out0_A_1
  rw [View.read_writes_eq_canon _ _ _ (cover0_A_1 c i a2 h2 a3 h3 hc x)]
  unfold kernelRun0_A
  dsimp only
  sl_unfold_words
  rw [View.canon_cons_unit_zero (S := S1x4x2048) hz3, View.readCov_unit_zero (S := S1x4x2048) _ hz3]
  simp only [View.readAt_eq_ld, h2.read_unread]
  rfl

end Cert.KernelIdeal.KValue

end
-- ==== Proof.KernelChain.lean ====
/-
  The output block after each grid point, as a running sum.

  Point n of the 32-point grid (point 16·c + i is step i of core c) leaves in the output block `step` of its input tile
  and of the zero block when n is the first point of its core (n ≡ 0 mod 16), of what point n − 1 left otherwise.  That
  recursion, `chain`, is what the block holds after every point, by induction on the point.
-/
import proofs.«123349_j86526411145660_2_alg».proof.Proof.KernelBody

noncomputable section

open Idealize.ShloMosaic Idealize.ShloMosaic.TcCoe Idealize.SL.Sem

namespace Cert.KernelIdeal.KValue

open Cert.KernelIdeal Cert.KernelIdeal.Gen

variable {F : FTy → Type} [FloatOps F]
variable (m : (ℓ : Loc nD τ sig) → Buf (Elt F) ℓ)

/-- The block's contents after point `n`: restarted from zero at the first point of a core, carried on otherwise. -/
def chain (c : Dev nD) : (n : ℕ) → n < cfg0.N → Vec F S1x4x2048 .f32
  | 0, h => step (iblk m c 0 ⟨0, h⟩) k0_pay2
  | n + 1, h =>
    if (n + 1) % 16 = 0 then step (iblk m c 0 ⟨n + 1, h⟩) k0_pay2
    else step (iblk m c 0 ⟨n + 1, h⟩) (chain c n (Nat.lt_of_succ_lt h))

theorem chain_zero (c : Dev nD) (h : 0 < cfg0.N) : chain m c 0 h = step (iblk m c 0 ⟨0, h⟩) k0_pay2 := rfl

theorem chain_first (c : Dev nD) (n : ℕ) (h : n + 1 < cfg0.N) (h0 : (n + 1) % 16 = 0) :
    chain m c (n + 1) h = step (iblk m c 0 ⟨n + 1, h⟩) k0_pay2 := by
  rw [chain, if_pos h0]

theorem chain_next (c : Dev nD) (n : ℕ) (h : n + 1 < cfg0.N) (h0 : ¬(n + 1) % 16 = 0) :
    chain m c (n + 1) h = step (iblk m c 0 ⟨n + 1, h⟩) (chain m c n (Nat.lt_of_succ_lt h)) := by
  rw [chain, if_neg h0]

/-- What the output's staging buffer holds after point `n` is the running sum, by induction on the point. -/
theorem outsAt_eq (c : Dev nD) : ∀ (n : ℕ) (h : n < cfg0.N), outsAt0 m c n h = chain m c n h
  | 0, h => (outsAt0_A m c ⟨0, h⟩ rfl).trans (out_A ..)
  | n + 1, h => by
    by_cases h0 : (n + 1) % 16 = 0
    · rw [outsAt0_A m c ⟨n + 1, h⟩ h0, out_A, chain_first m c n h h0]
    · rw [outsAt0_B m c ⟨n + 1, h⟩ h0, out_B, chain_next m c n h h0]
      show step _ (outsAt0 m c n _) = _
      rw [outsAt_eq c n]

end Cert.KernelIdeal.KValue

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibMinAxis.lean ====
/-
  Minima and sums along one axis of an array of extended reals, read at an index written by its coordinates.

  A minimum taken along one axis, started from a given value, is the fold of `min` from that value over the axis's
  coordinates; started from the top element it is the infimum.  This is proved for the host's reduction of a rank-3 array
  along its last or its middle axis, and for a vector reduction along any one axis; the sum of a matrix along its first
  axis is the sum over the row coordinate.  Last, the infimum of a function over the first `(j + 1) * w` indices is the
  smaller of its infimum over the first `j * w` and its infimum over the next run of `w`.
-/
import Idealize.ShloMosaic.PureOps.Ideal
import Idealize.ShloMosaic.PureOps.Ideal.Laws
import Idealize.ShloMosaic.PureOps.Reduce
import Idealize.ShloMosaic.Lib.ValueIdx

noncomputable section

namespace Idealize.ShloMosaic.MinAxis

open Idealize.ShloMosaic Idealize.ShloMosaic.ValueIdx

/-! ## The index with the reduced coordinate inserted -/

section Lift
variable {a b c : ℕ}

/-- Over `(i, j)`, with `k` inserted on the last axis: `(i, j, k)`. -/
theorem lift_last (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Over `(i, k)`, with `j` inserted on the middle axis: `(i, j, k)`. -/
theorem lift_middle (h : (⟨3, ![a, b, c]⟩ : Shape).Reduces [1] ⟨2, ![a, c]⟩) (i : Fin a) (j : Fin b) (k : Fin c) :
    h.lift (ix2 i k) j = ix3 i j k := by
  funext ax
  apply Fin.ext
  match ax with
  | ⟨0, _⟩ => rfl
  | ⟨1, _⟩ => rfl
  | ⟨2, _⟩ => rfl

end Lift

/-! ## The host's minimum along one axis of a rank-3 array -/

section Host
variable {a b c : ℕ} {φ : FTy}

/-- The host's minimum along the last axis, at `(i, j)`: the fold of `min` from the initial value over `k`. -/
theorem hostReduce_min_last {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.minimumf (F := Ideal) (φ := φ)) x init h' hu (ix2 i j)
      = (Finset.univ : Finset (Fin c)).fold min (init (Shape.Idx.first hu)) fun k => x (ix3 i j k) := by
  refine (Host.reduce_eq_fold_single (FloatOps.minimumf (F := Ideal) (φ := φ)) x init h' h hu (ix2 i j)).trans ?_
  refine congrArg (Finset.fold min (init (Shape.Idx.first hu)) · Finset.univ) (funext fun k => ?_)
  exact congrArg x (lift_last h i j k)

/-- The host's minimum along the middle axis, at `(i, k)`: the fold of `min` from the initial value over `j`. -/
theorem hostReduce_min_middle {u : Shape} (x : (⟨3, ![a, b, c]⟩ : Shape).Idx → Ideal φ) (init : u.Idx → Ideal φ)
    (h' : (⟨3, ![a, b, c]⟩ : Shape).ReducesTo [1] ⟨2, ![a, c]⟩) (h : (⟨3, ![a, b, c]⟩ : Shape).Reduces [1] ⟨2, ![a, c]⟩)
    (hu : 0 < u.numel) (i : Fin a) (k : Fin c) :
    Host.reduce (FloatOps.minimumf (F := Ideal) (φ := φ)) x init h' hu (ix2 i k)
      = (Finset.univ : Finset (Fin b)).fold min (init (Shape.Idx.first hu)) fun j => x (ix3 i j k) := by
  refine (Host.reduce_eq_fold_single (FloatOps.minimumf (F := Ideal) (φ := φ)) x init h' h hu (ix2 i k)).trans ?_
  refine congrArg (Finset.fold min (init (Shape.Idx.first hu)) · Finset.univ) (funext fun j => ?_)
  exact congrArg x (lift_middle h i j k)

end Host

/-- A fold of `min` from the top of the extended reals is the infimum. -/
theorem fold_min_top {ι : Type} (s : Finset ι) (f : ι → EReal) : s.fold min ⊤ f = s.inf f := rfl

/-! ## A vector reduction along one axis -/

/-- A vector minimum along one axis, read on the extended reals: the fold of `min` from the accumulator's value over
    that axis's coordinates. -/
theorem min_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum of a `[b, a]` matrix along its first axis, read at lane `q` on the extended reals, is the sum over the
    row coordinate of that lane's entries (the accumulator word is the neutral one, zero). -/
theorem sum_first_apply {a b : ℕ} (x : FVec Ideal ⟨2, ![b, a]⟩ .f32) (h : (⟨2, ![b, a]⟩ : Shape).Reduces [0] ⟨1, ![a]⟩)
    (hφ : FKind.Formats .f32) (hacc : (0x00000000#32 : BitVec 32) = FKind.add.neutral .f32 hφ) (q : Fin a) :
    multiReduction .add [0] ⟨1, ![a]⟩ x 0x00000000#32 h hφ hacc (ix1 q) = ∑ d : Fin b, x (ix2 d q) := by
  refine (Ideal.multiReduction_add_single x 0x00000000#32 h hφ hacc (ix1 q)).trans ?_
  show ∑ d : Fin b, x (h.lift (ix1 q) d) = ∑ d : Fin b, x (ix2 d q)
  refine Finset.sum_congr rfl fun d _ => congrArg x (funext fun c => Fin.ext ?_)
  match c with
  | ⟨0, _⟩ => rfl
  | ⟨1, _⟩ => rfl

/-! ## An infimum over the indices below a bound, one run of `w` at a time -/

section Runs
variable {N w : ℕ}

/-- Below zero there is no index: the infimum is the top. -/
theorem inf_below_zero (f : Fin N → EReal) : (Finset.univ.filter fun q : Fin N => q.val < 0).inf f = ⊤ := by
  have e : (Finset.univ.filter fun q : Fin N => q.val < 0) = ∅ :=
    Finset.filter_false_of_mem fun q _ => Nat.not_lt_zero _
  rw [e, Finset.inf_empty]

/-- Below `N` there is every index. -/
theorem inf_below_all (f : Fin N → EReal) :
    (Finset.univ.filter fun q : Fin N => q.val < N).inf f = Finset.univ.inf f := by
  rw [Finset.filter_true_of_mem fun q _ => q.isLt]

/-- Index `r` of run `j` is below `N` when the first `j + 1` runs are. -/
theorem run_lt (j : ℕ) (hj : (j + 1) * w ≤ N) (r : Fin w) : j * w + r.val < N := by
  have h : (j + 1) * w = j * w + w := Nat.succ_mul j w
  have := r.isLt
  omega

/-- The indices below `(j + 1) * w` are those below `j * w` and the run `j * w + r`, `r` below `w`. -/
theorem below_succ (j : ℕ) (hj : (j + 1) * w ≤ N) :
    (Finset.univ.filter fun q : Fin N => q.val < (j + 1) * w)
      = (Finset.univ.filter fun q : Fin N => q.val < j * w)
          ∪ Finset.univ.image fun r : Fin w => (⟨j * w + r.val, run_lt j hj r⟩ : Fin N) := by
  have h : (j + 1) * w = j * w + w := Nat.succ_mul j w
  ext q
  simp only [Finset.mem_filter, Finset.mem_univ, true_and, Finset.mem_union, Finset.mem_image]
  constructor
  · intro hq
    by_cases hq' : q.val < j * w
    · exact Or.inl hq'
    · exact Or.inr ⟨⟨q.val - j * w, by omega⟩, Fin.ext (by show j * w + (q.val - j * w) = q.val; omega)⟩
  · rintro (hq | ⟨r, rfl⟩)
    · omega
    · show j * w + r.val < (j + 1) * w
      have := r.isLt
      omega

/-- So the infimum below `(j + 1) * w` is the smaller of the infimum below `j * w` and the infimum over run `j`. -/
theorem inf_below_succ (f : Fin N → EReal) (j : ℕ) (hj : (j + 1) * w ≤ N) :
    (Finset.univ.filter fun q : Fin N => q.val < (j + 1) * w).inf f
      = min ((Finset.univ.filter fun q : Fin N => q.val < j * w).inf f)
          (Finset.univ.inf fun r : Fin w => f ⟨j * w + r.val, run_lt j hj r⟩) := by
  rw [below_succ j hj, Finset.inf_union, Finset.inf_image]
  rfl

end Runs

end Idealize.ShloMosaic.MinAxis

end
-- ==== Proof.KernelPart.lean ====
/-
  One part of the tile, read entry by entry.

  Each of the four 256 × 2048 parts `v` of a tile goes through the same computation: the squares of a row's entries are
  summed along the row, the reciprocal square root of that sum is spread back along the row, every entry is multiplied by
  its row's factor, and the products are summed down the 256 rows.  The result is a single row of 2048 entries; entry `d`
  is the sum over the rows `r` of `v (r, d) · rsqrt (∑ₖ v (r, k)²)`.  The intermediate reshapes ([256] to [256, 1] before
  the spreading, [2048] to [1, 2048] at the end) move no entry: they only rename positions, which is what the index
  lemmas used below say.
-/
import proofs.«123349_j86526411145660_2_alg».proof.Proof.Gen.KernelIdeal.Skeleton
import proofs.«123349_j86526411145660_2_alg».proof.Proof.LibColumn
import proofs.«123349_j86526411145660_2_alg».proof.Proof.LibMinAxis
import Idealize.ShloMosaic.Lib.ValueLayout
import Idealize.ShloMosaic.Lib.ValueIdx

noncomputable section

open Idealize.ShloMosaic Idealize.ShloMosaic.ValueIdx

namespace Cert.KernelIdeal.KValue

open Cert.KernelIdeal Cert.KernelIdeal.Gen

/-- Entry `d` of the row computed from a part `v`: the sum down the rows of the entry in column `d` times the reciprocal
    square root of its row's sum of squares. -/
theorem part_apply (v : Vec Ideal S256x2048 .f32) (d : Fin 2048) :
    k0_pay3 (F := Ideal) v (ix2 (0 : Fin 1) d)
      = ∑ r : Fin 256, v (ix2 r d) * Ideal.rsqrt (∑ k : Fin 2048, v (ix2 r k) * v (ix2 r k)) := by
  unfold k0_pay3
  refine (shapeCast_a_1a_apply _ _ (0 : Fin 1) d).trans ?_
  refine (MinAxis.sum_first_apply _ _ _ _ d).trans ?_
  refine Finset.sum_congr rfl fun r _ => ?_
  refine congrArg (v (ix2 r d) * ·) ?_
  refine (Cert.LibColumn.broadcastTo_a1_ab_apply _ _ r d).trans ?_
  refine congrArg Ideal.rsqrt ?_
  refine (Cert.LibColumn.shapeCast_a_a1_apply _ _ r (0 : Fin 1)).trans ?_
  exact Cert.LibColumn.sum_last_apply _ _ _ _ r

/-- The other three parts go through the same computation, term for term. -/
theorem pay4_eq (v : Vec Ideal S256x2048 .f32) : k0_pay4 (F := Ideal) v = k0_pay3 (F := Ideal) v := rfl
theorem pay5_eq (v : Vec Ideal S256x2048 .f32) : k0_pay5 (F := Ideal) v = k0_pay3 (F := Ideal) v := rfl
theorem pay6_eq (v : Vec Ideal S256x2048 .f32) : k0_pay6 (F := Ideal) v = k0_pay3 (F := Ideal) v := rfl

end Cert.KernelIdeal.KValue

end
-- ==== Proof.KernelStep.lean ====
/-
  What one grid point adds to the output block, entry by entry.

  The tile is 256 rows of 8192 columns, read as four parts of 2048 columns: entry `k` of part `p` of a row is the row's
  column `2048·p + k`.  A load through the rectangle of 256 × 2048 entries that starts at column `2048·p` reads exactly
  part `p`: its entry `(r, k)` is the tile's entry `(r, 2048·p + k)`.  Each part is turned into one row of 2048 entries —
  entry `d` is the sum over the rows `r` of the part's entry `(r, d)` times the reciprocal square root of the sum of the
  squares of the part's row `r` — and the four rows are stacked into a 4 × 2048 array whose row `p` comes from part `p`.
  The stack, given a leading axis of extent one, is added entry by entry to the block's previous contents.  So entry
  `(0, p, d)` of the new block is the old entry plus
  `∑ᵣ x (r, 2048·p + d) · rsqrt (∑ₖ x (r, 2048·p + k)²)`.  The block stored first at the start of a core's walk is the
  zero block: a broadcast of the word of `+0.0`, which reads as the extended real `0`.
-/
import proofs.«123349_j86526411145660_2_alg».proof.Proof.KernelBody
import proofs.«123349_j86526411145660_2_alg».proof.Proof.Spec
import proofs.«123349_j86526411145660_2_alg».proof.Proof.KernelPart
import Idealize.ShloMosaic.Lib.ValueLayout
import Idealize.ShloMosaic.Lib.ValueIdx

noncomputable section

open Idealize.ShloMosaic Idealize.ShloMosaic.TcCoe Idealize.SL.Sem

namespace Cert.KernelIdeal.KValue

open Cert.KernelIdeal Cert.KernelIdeal.Gen Idealize.ShloMosaic.ValueIdx

/-- Every entry of the block stored at a core's first point is zero. -/
theorem zero_apply (j : S1x4x2048.Idx) : (k0_pay2 (F := Ideal)) j = 0 := by
  unfold k0_pay2
  show Ideal.ofBits .f32 0x00000000#32 = 0
  exact Ideal.ofBits_zero_f32

/-- A load of 256 × 2048 entries starting at row 0 and at the first column of part `p` reads part `p`: its entry
    `(r, k)` is the tile's entry `(r, 2048·p + k)`. -/
theorem ld_part_apply (x : Vec Ideal S256x8192 .f32) (off : Fin 2 → Nat)
    (inb : ∀ a, off a + (![256, 2048] : Fin 2 → Nat) a ≤ S256x8192.size a) (p : Fin 4) (h0 : off 0 = 0)
    (h1 : off 1 = p.val * 2048) (r : Fin 256) (k : Fin 2048) :
    View.ld x (Rect.unit off ![256, 2048] inb) (ix2 r k) = x (ix2 r (Cert.NormSum.col p k)) := by
  refine congrArg x (funext fun a => Fin.ext ?_)
  match a with
  | ⟨0, _⟩ =>
    show off 0 + 1 * r.val = r.val
    omega
  | ⟨1, _⟩ =>
    show off 1 + 1 * k.val = p.val * 2048 + k.val
    omega

/-- The row computed from the part loaded at the first column of part `p`, read at entry `d`, in terms of the tile. -/
theorem piece_apply (x : Vec Ideal S256x8192 .f32) (off : Fin 2 → Nat)
    (inb : ∀ a, off a + (![256, 2048] : Fin 2 → Nat) a ≤ S256x8192.size a) (p : Fin 4) (h0 : off 0 = 0)
    (h1 : off 1 = p.val * 2048) (d : Fin 2048) :
    k0_pay3 (F := Ideal) (View.ld x (Rect.unit off ![256, 2048] inb)) (ix2 (0 : Fin 1) d)
      = ∑ r : Fin 256, x (ix2 r (Cert.NormSum.col p d))
          * Ideal.rsqrt (∑ k : Fin 2048, x (ix2 r (Cert.NormSum.col p k)) * x (ix2 r (Cert.NormSum.col p k))) := by
  have e : ∀ (r : Fin 256) (k : Fin 2048),
      View.ld x (Rect.unit off ![256, 2048] inb) (ix2 r k) = x (ix2 r (Cert.NormSum.col p k)) :=
    ld_part_apply x off inb p h0 h1
  refine (part_apply _ d).trans ?_
  refine Finset.sum_congr rfl fun r _ => ?_
  exact congrArg₂ (· * ·) (e r d)
    (congrArg Ideal.rsqrt (Finset.sum_congr rfl fun k _ => congrArg₂ (· * ·) (e r k) (e r k)))

/-- Four rows of 2048 entries stacked along a new first axis: row `p` of the stack is the `p`-th of them. -/
theorem concat4_apply {α : Type} (P : Fin 4 → (S1x2048.Idx → α))
    (h : Shape.Concatenates [S1x2048, S1x2048, S1x2048, S1x2048] S4x2048 0) (p : Fin 4) (d : Fin 2048) :
    concatenate S4x2048 0 [⟨S1x2048, P 0⟩, ⟨S1x2048, P 1⟩, ⟨S1x2048, P 2⟩, ⟨S1x2048, P 3⟩] h (ix2 p d)
      = P p (ix2 (0 : Fin 1) d) := by
  refine concatenate_ofFn_unit_apply (t := S4x2048) (s₁ := S1x2048) (0 : Fin 2) P h rfl rfl (ix2 p d) p rfl
    (ix2 (0 : Fin 1) d) fun b hb => ?_
  match b with
  | ⟨0, _⟩ => exact absurd rfl hb
  | ⟨1, _⟩ => rfl

/-- Entry `(0, p, d)` of the block after a point: the previous entry plus the sum over the tile's rows of the entry in
    column `d` of part `p` times the reciprocal square root of the sum of squares of that part of the row. -/
theorem step_apply (x : Vec Ideal S256x8192 .f32) (xo : Vec Ideal S1x4x2048 .f32) (u : Fin 1) (p : Fin 4) (d : Fin 2048) :
    step (F := Ideal) x xo (ix3 u p d)
      = xo (ix3 u p d) + ∑ r : Fin 256, x (ix2 r (Cert.NormSum.col p d))
          * Ideal.rsqrt (∑ k : Fin 2048, x (ix2 r (Cert.NormSum.col p k)) * x (ix2 r (Cert.NormSum.col p k))) := by
  unfold step k0_pay1
  refine (addf_apply _ _ _).trans ?_
  refine congrArg₂ (· + ·) (congrFun (shapeCast_self xo _) _) ?_
  refine (shapeCast_ab_1ab_apply _ _ u p d).trans ?_
  refine (concat4_apply
    ![k0_pay3 (F := Ideal) (View.ld x (Rect.unit ![0, 0] ![256, 2048] inb_S256x8192_S256x2048_0_0)),
      k0_pay4 (F := Ideal) (View.ld x (Rect.unit ![0, 2048] ![256, 2048] inb_S256x8192_S256x2048_0_2048)),
      k0_pay5 (F := Ideal) (View.ld x (Rect.unit ![0, 4096] ![256, 2048] inb_S256x8192_S256x2048_0_4096)),
      k0_pay6 (F := Ideal) (View.ld x (Rect.unit ![0, 6144] ![256, 2048] inb_S256x8192_S256x2048_0_6144))]
    _ p d).trans ?_
  match p with
  | ⟨0, _⟩ => exact piece_apply x _ _ (0 : Fin 4) rfl rfl d
  | ⟨1, _⟩ => exact piece_apply x _ _ (1 : Fin 4) rfl rfl d
  | ⟨2, _⟩ => exact piece_apply x _ _ (2 : Fin 4) rfl rfl d
  | ⟨3, _⟩ => exact piece_apply x _ _ (3 : Fin 4) rfl rfl d

end Cert.KernelIdeal.KValue

end
-- ==== Proof.KernelSum.lean ====
/-
  The partial sums the kernel writes, entry by entry.

  Write g(b) for entry d of part p of row b of the input times the reciprocal square root of that part's sum of
  squares (zero past the last row).  The tile of grid point t holds rows 256·t … 256·t + 255, so the point adds
  ∑_{r < 256} g(r + 256·t) to entry (p, d) of its core's block.  By induction on the point the block after point n holds
  the sum of these over the points of n's core up to n; the block is written back after the last point of each core
  (n ≡ 15 mod 16), so entry (c, p, d) of the 2 × 4 × 2048 result is the sum over the 16 points 16·c + i of core c.  The two
  write-backs cover the array.
-/
import proofs.«123349_j86526411145660_2_alg».proof.Proof.KernelChain
import proofs.«123349_j86526411145660_2_alg».proof.Proof.KernelStep
import proofs.«123349_j86526411145660_2_alg».proof.Proof.Spec
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.NormSum

variable (m : (ℓ : Loc nD τ sig) → Buf (Elt Ideal) ℓ)

/-- The input array on core `c`. -/
abbrev X (c : Dev nD) : SX.Idx → EReal := m ((c : Thread nD τ).loc main_arg0)

/-- Entry `d` of part `p` of row `b`, times the reciprocal root of the part's sum of squares; zero past the last row. -/
def term (x : SX.Idx → EReal) (p : Fin 4) (d : Fin 2048) (b : ℕ) : EReal :=
  if h : b < 8192 then x (ix2 ⟨b, h⟩ (col p d)) * Ideal.rsqrt (ss x ⟨b, h⟩ p) else 0

/-- What the tile of point `t` adds to entry `(p, d)`. -/
def tileSum (x : SX.Idx → EReal) (p : Fin 4) (d : Fin 2048) (t : ℕ) : EReal :=
  ∑ r : Fin 256, term x p d (r.val + 256 * t)

/-- Entry `(c, p, d)` of the partial sums: the 16 tiles of core `c`. -/
def blockSum (x : SX.Idx → EReal) : S2x4x2048.Idx → EReal :=
  fun j => ∑ i : Fin 16, tileSum x (j 1) (j 2) (i.val + 16 * (j 0).val)

/-- The printed index maps over the grid: the input's block index is the point's number, the output's the core. -/
theorem idx_in : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_out : ∀ t : Fin cfg0.N, win0_1.index t (0 : Fin 3) = t.val / 16 ∧ win0_1.index t (1 : Fin 3) = 0 ∧ win0_1.index t (2 : Fin 3) = 0 :=
  (by decide +kernel : ∀ t : Fin grid0.N, win0_1.index t (0 : Fin 3) = t.val / 16 ∧ win0_1.index t (1 : Fin 3) = 0 ∧ win0_1.index t (2 : Fin 3) = 0)

/-- Row `r` of the tile of point `t` is row `256·t + r` of the input. -/
theorem iblk_apply (c : Dev nD) (t : Fin cfg0.N) (r : Fin 256) (q : Fin 8192) (hb : r.val + 256 * t.val < 8192) :
    (iblk m c 0 t : Vec Ideal S256x8192 .f32) (ix2 r q) = X m c (ix2 ⟨r.val + 256 * t.val, hb⟩ q) := by
  obtain ⟨e0, e1⟩ := idx_in t
  unfold iblk
  rw [View.read_apply]
  show V m c main_arg0 _ = m (c.tc.loc main_arg0) _
  rw [V_main_arg0]
  refine congrArg _ (funext fun a => Fin.ext ?_)
  match a with
  | ⟨0, _⟩ => show win0_0.index t (0 : Fin 2) * 256 + 1 * r.val = r.val + 256 * t.val; rw [e0]; omega
  | ⟨1, _⟩ => show win0_0.index t (1 : Fin 2) * 8192 + 1 * q.val = q.val; rw [e1]; omega

/-- So the tile's scaled column sum is `tileSum` at the point's number. -/
theorem tile_eq (c : Dev nD) (t : Fin cfg0.N) (p : Fin 4) (d : Fin 2048) (x : Vec Ideal S256x8192 .f32)
    (hx : x = iblk m c 0 t) :
    (∑ r : Fin 256, x (ix2 r (col p d))
        * Ideal.rsqrt (∑ k : Fin 2048, x (ix2 r (col p k)) * x (ix2 r (col p k))))
      = tileSum (X m c) p d t.val := by
  subst hx
  have hN : t.val < 32 := lt_of_lt_of_eq t.isLt (show cfg0.N = 32 from N_0)
  refine Finset.sum_congr rfl fun r _ => ?_
  have hb : r.val + 256 * t.val < 8192 := by have := r.isLt; omega
  rw [term, dif_pos hb, iblk_apply m c t r _ hb]
  refine congrArg (fun s => _ * Ideal.rsqrt s) ?_
  unfold ss
  exact Finset.sum_congr rfl fun k _ => by rw [iblk_apply m c t r _ hb]

/-- The block after point `n`: the tiles of `n`'s core up to `n`. -/
theorem chain_apply (c : Dev nD) (u : Fin 1) (p : Fin 4) (d : Fin 2048) : ∀ (n : ℕ) (h : n < cfg0.N),
    chain m c n h (ix3 u p d) = ∑ i ∈ Finset.range (n % 16 + 1), tileSum (X m c) p d (i + 16 * (n / 16))
  | 0, h => by
    rw [chain_zero, step_apply, zero_apply, zero_add, tile_eq m c ⟨0, h⟩ p d _ rfl]
    show tileSum (X m c) p d 0 = _
    rw [show 0 % 16 + 1 = 1 from rfl, Finset.sum_range_one]
  | n + 1, h => by
    by_cases h0 : (n + 1) % 16 = 0
    · rw [chain_first m c n h h0, step_apply, zero_apply, zero_add, tile_eq m c ⟨n + 1, h⟩ p d _ rfl, h0, Finset.sum_range_one]
      show tileSum (X m c) p d (n + 1) = _
      refine congrArg _ ?_
      omega
    · rw [chain_next m c n h h0, step_apply, tile_eq m c ⟨n + 1, h⟩ p d _ rfl, chain_apply c u p d n]
      have e1 : (n + 1) % 16 = n % 16 + 1 := by omega
      have e2 : (n + 1) / 16 = n / 16 := by omega
      rw [e1, e2, Finset.sum_range_succ _ (n % 16 + 1)]
      show _ + tileSum (X m c) p d (n + 1) = _
      refine congrArg (_ + tileSum (X m c) p d ·) ?_
      omega

/-- After the last point of a core the block holds the core's partial sums. -/
theorem chain_last (c : Dev nD) (t : Fin cfg0.N) (ht : t.val % 16 = 15) (y : S1x4x2048.Idx) (cc : Fin 2)
    (hcc : cc.val = t.val / 16) : chain m c t.val t.isLt y = blockSum (X m c) (ix3 cc (y 1) (y 2)) := by
  obtain ⟨u, p, d, rfl⟩ : ∃ (u : Fin 1) (p : Fin 4) (d : Fin 2048), y = ix3 u p d := ⟨y 0, y 1, y 2, eq_ix3 y⟩
  rw [chain_apply, ht, Finset.sum_range]
  unfold blockSum
  refine Finset.sum_congr rfl fun i _ => ?_
  show tileSum (X m c) p d (i.val + 16 * (t.val / 16)) = tileSum (X m c) p d (i.val + 16 * cc.val)
  rw [hcc]

/-- What a write-back writes is the point's block of the partial sums. -/
theorem flushed_eq (c : Dev nD) (t : Fin cfg0.N) (hf : (cfg0.win 1).flush t = true) :
    (dats m 0 c).flushed 1 t = ((cfg0.win 1).blk t).view.read (Elt Ideal) (blockSum (X m c)) := by
  have ht : t.val % 16 = 15 := (flush0_1 t).mp hf
  have hN : t.val < 32 := lt_of_lt_of_eq t.isLt (show cfg0.N = 32 from N_0)
  obtain ⟨e0, e1, e2⟩ := idx_out t
  show (cfg0.win 1).cut (grid0.coords t) ((dats m 0 c).after 1 t) = _
  rw [after0_1, outsAt_eq]
  funext y
  rw [View.read_apply]
  show chain m c t.val t.isLt y = blockSum (X m c) (((cfg0.win 1).blk t).view.emb y)
  rw [chain_last m c t ht y ⟨t.val / 16, by omega⟩ rfl]
  refine congrArg _ (funext fun a => Fin.ext ?_)
  match a with
  | ⟨0, _⟩ =>
    show t.val / 16 = win0_1.index t (0 : Fin 3) * 1 + 1 * (y 0).val
    have : (y 0).val < 1 := (y 0).isLt
    rw [e0]; omega
  | ⟨1, _⟩ => show (y 1).val = win0_1.index t (1 : Fin 3) * 4 + 1 * (y 1).val; rw [e1]; omega
  | ⟨2, _⟩ => show (y 2).val = win0_1.index t (2 : Fin 3) * 2048 + 1 * (y 2).val; rw [e2]; omega

/-- An index is in point `t`'s block iff each coordinate is in the block's range on its axis. -/
theorem mem_blk (t : Fin cfg0.N) (i : S2x4x2048.Idx) :
    i ∈ ((cfg0.win 1).blk t).view.set ↔ ∀ a : Fin 3, win0_1.index t a * S1x4x2048.size a ≤ (i a).val
      ∧ (i a).val < win0_1.index t a * S1x4x2048.size a + S1x4x2048.size a := by
  show i ∈ ((View.whole main_v0).slice (win0_1.rect t)).set ↔ _
  rw [View.set_slice_whole, Rect.mem_set_unit]
  exact Iff.rfl

/-- The result array after the kernel: the partial sums (core `c'`'s block is written back at point `16·c' + 15`). -/
theorem final_parts (c : Dev nD) : (dats m 0 c).arrAt 1 cfg0.N = blockSum (X m c) :=
  (dats m 0 c).arrAt_eq_of_cover 1 (blockSum (X m c)) (flushed_eq m c) fun i => by
    have h0 : (i 0).val < 2 := (i 0).isLt
    have h1 : (i 1).val < 4 := (i 1).isLt
    have h2 : (i 2).val < 2048 := (i 2).isLt
    have hlt : 16 * (i 0).val + 15 < cfg0.N := by rw [show cfg0.N = 32 from N_0]; omega
    obtain ⟨e0, e1, e2⟩ := idx_out ⟨16 * (i 0).val + 15, hlt⟩
    refine ⟨⟨16 * (i 0).val + 15, hlt⟩, (flush0_1 _).mpr (by show (16 * (i 0).val + 15) % 16 = 15; omega), ?_⟩
    rw [mem_blk]
    intro a
    match a with
    | ⟨0, _⟩ =>
      show win0_1.index ⟨16 * (i 0).val + 15, hlt⟩ (0 : Fin 3) * 1 ≤ (i 0).val
        ∧ (i 0).val < win0_1.index ⟨16 * (i 0).val + 15, hlt⟩ (0 : Fin 3) * 1 + 1
      rw [e0]; show (16 * (i 0).val + 15) / 16 * 1 ≤ (i 0).val ∧ (i 0).val < (16 * (i 0).val + 15) / 16 * 1 + 1; omega
    | ⟨1, _⟩ =>
      show win0_1.index ⟨16 * (i 0).val + 15, hlt⟩ (1 : Fin 3) * 4 ≤ (i 1).val
        ∧ (i 1).val < win0_1.index ⟨16 * (i 0).val + 15, hlt⟩ (1 : Fin 3) * 4 + 4
      rw [e1]; omega
    | ⟨2, _⟩ =>
      show win0_1.index ⟨16 * (i 0).val + 15, hlt⟩ (2 : Fin 3) * 2048 ≤ (i 2).val
        ∧ (i 2).val < win0_1.index ⟨16 * (i 0).val + 15, hlt⟩ (2 : Fin 3) * 2048 + 2048
      rw [e2]; omega

end Cert.KernelIdeal.KValue

end
-- ==== Proof.LibStretch.lean ====
/-
  Two general facts about a straight line of host operations, for any program.

  * `after_append`: the buffer contents after two stretches of operations run one after the other are the second
    stretch's fold over the first's — so a long line is read back stretch by stretch, each stretch from whatever
    contents it finds.
  * `ofBuf_toBuf`: a value carried to the type of the buffer a typed reference names and back again is the value;
    the operations of an inlined call write and read their buffers through exactly these two transports, so every
    value that passes from one such operation to the next comes through unchanged. (A value that enters such an
    operation from a plain buffer, or leaves the last one, passes ONE transport: it is removed by
    `eq_of_heq (cast_heq _ _)`, the two types being the same once the reference's type is computed.)
-/
import Idealize.ShloMosaic.Lib.StableHlo.Run

noncomputable section

namespace Cert.LibStretch

open Idealize.ShloMosaic Idealize.ShloMosaic.StableHlo

variable {τ : Topo} {sig : RefSig} {Val : EltTy → Type}

/-- Two stretches one after the other. -/
theorem after_append (l1 l2 : List (HloOp τ sig Val)) (V : Valuation τ sig Val) :
    after (l1 ++ l2) V = after l2 (after l1 V) := by
  induction l1 generalizing V with
  | nil => rfl
  | cons a l ih => exact ih _

/-- Contents carried to a buffer's own type and back are the contents. -/
theorem ofBuf_toBuf {T : BufTy} (x : TRef sig T) (v : T.Contents Val) : x.ofBuf (x.toBuf v) = v := by
  obtain ⟨r, h, h1, h2⟩ := x
  subst h
  rfl

end Cert.LibStretch

end
-- ==== Proof.KernelTail.lean ====
/-
  The operations after the kernel, read back over any buffer contents.

  After the kernel has written the per-core partial sums (a 2 × 4 × 2048 array) the program adds the two cores'
  partials, divides by the number of rows, forms the 4 × 4 matrix of inner products of the mean's rows, sums its entries,
  takes its trace, and combines the two numbers with the second input.  The line of operations is read back in three
  stretches, each from whatever contents it finds; composed, the result buffer holds `fromRowSum` of the sum of the two
  partials and the second input.
-/
import proofs.«123349_j86526411145660_2_alg».proof.Proof.Gen.KernelIdeal.Frame
import proofs.«123349_j86526411145660_2_alg».proof.Proof.Spec
import proofs.«123349_j86526411145660_2_alg».proof.Proof.LibStretch
import Idealize.ShloMosaic.Lib.StableHlo.Run

noncomputable section

open Idealize.ShloMosaic Idealize.ShloMosaic.TcCoe Idealize.SL.Sem Idealize.ShloMosaic.StableHlo

namespace Cert.KernelIdeal.KValue

open Cert.KernelIdeal Cert.KernelIdeal.Gen Cert.NormSum

/-- The two cores' partial sums added. -/
def coreSum (part : FVec Ideal Cert.KernelIdeal.S2x4x2048 .f32) : FVec Ideal Cert.NormSum.S4x2048 .f32 :=
  Host.reduceAdd part (constant (F := Ideal) Cert.KernelIdeal.S_ .f32 0x00000000#32) reducesTo_S2x4x2048_S4x2048_d0 Cert.KernelIdeal.Facts₀.h_S_

variable (W : Valuation τ sig (Elt Ideal))

set_option maxHeartbeats 1000000 in
/-- The last stretch: the affine combination, scaled by the second input. -/
theorem last_v13 : after hostOps1_2 W (Proc.devRef .tc main_v13)
    = scaled (W (Proc.devRef .tc main_v6)) (W (Proc.devRef .tc main_v7)) (W (Proc.devRef .tc main_arg1)) := by
  simp only [hostOps1_2]
  after_results
  rfl

set_option maxHeartbeats 1000000 in
/-- The middle stretch: the trace of the 4 × 4 matrix it finds. -/
theorem mid_v7 : after hostOps1_1 W (Proc.devRef .tc main_v7) = diagSum (W (Proc.devRef .tc main_v5)) := by
  simp only [hostOps1_1]
  after_results
  simp only [Cert.LibStretch.ofBuf_toBuf]
  rfl

set_option maxHeartbeats 1000000 in
/-- The middle stretch leaves the entry sum and the second input as it found them. -/
theorem mid_v6 : after hostOps1_1 W (Proc.devRef .tc main_v6) = W (Proc.devRef .tc main_v6) := by
  simp only [hostOps1_1]
  after_results

set_option maxHeartbeats 1000000 in
theorem mid_arg1 : after hostOps1_1 W (Proc.devRef .tc main_arg1) = W (Proc.devRef .tc main_arg1) := by
  simp only [hostOps1_1]
  after_results

set_option maxHeartbeats 1000000 in
/-- The first stretch: the inner products of the mean of the two partials' sum, and their entry sum. -/
theorem first_v5 : after hostOps1 W (Proc.devRef .tc main_v5) = gram (coreSum (W (Proc.devRef .tc main_v0))) := by
  simp only [hostOps1]
  after_results
  rfl

set_option maxHeartbeats 1000000 in
theorem first_v6 : after hostOps1 W (Proc.devRef .tc main_v6) = total (gram (coreSum (W (Proc.devRef .tc main_v0)))) := by
  simp only [hostOps1]
  after_results
  rfl

set_option maxHeartbeats 1000000 in
theorem first_arg1 : after hostOps1 W (Proc.devRef .tc main_arg1) = W (Proc.devRef .tc main_arg1) := by
  simp only [hostOps1]
  after_results

/-- The whole line: the result buffer holds `fromRowSum` of the two partials' sum and the second input. -/
theorem tail_v13 : after (List.flatten [hostOps1, hostOps1_1, hostOps1_2]) W (Proc.devRef .tc main_v13)
    = fromRowSum (coreSum (W (Proc.devRef .tc main_v0))) (W (Proc.devRef .tc main_arg1)) := by
  rw [show List.flatten [hostOps1 (F := Ideal), hostOps1_1, hostOps1_2] = hostOps1 ++ (hostOps1_1 ++ hostOps1_2) from by
    simp only [List.flatten_cons, List.flatten_nil, List.append_nil]]
  rw [Cert.LibStretch.after_append, Cert.LibStretch.after_append, last_v13, mid_v7, mid_v6, mid_arg1, first_v5, first_v6,
    first_arg1]
  rfl

end Cert.KernelIdeal.KValue

end
-- ==== Proof.LibBlockSum.lean ====
/-
  Regrouping a finite sum into consecutive blocks, in any commutative additive monoid (no cancellation and no
  finiteness is used, so it holds on the extended reals): a sum over `n * k` consecutive indices is the sum over the
  `n` blocks of the sums over the `k` places inside a block, place `e` of block `s` being index `e + k * s`.
-/
import Mathlib

namespace Cert.Lib.BlockSum

/-- Place `e` of block `s`, as an index below `n * k`: the natural `e + k * s`. -/
theorem place_val (n k : ℕ) (s : Fin n) (e : Fin k) : (finProdFinEquiv (s, e) : Fin (n * k)).val = e.val + k * s.val := rfl

/-- A sum over `Fin (n * k)` read block by block. -/
theorem sum_fin_mul_fin {M : Type*} [AddCommMonoid M] (n k : ℕ) (f : Fin (n * k) → M) :
    ∑ i : Fin (n * k), f i = ∑ s : Fin n, ∑ e : Fin k, f (finProdFinEquiv (s, e)) := by
  rw [← Fintype.sum_prod_type']
  exact (Equiv.sum_comp finProdFinEquiv f).symm

/-- The same with the summand a function of the natural under the index. -/
theorem sum_fin_mul {M : Type*} [AddCommMonoid M] (n k : ℕ) (f : ℕ → M) :
    ∑ i : Fin (n * k), f i.val = ∑ s : Fin n, ∑ e : Fin k, f (e.val + k * s.val) :=
  sum_fin_mul_fin n k fun i => f i.val

end Cert.Lib.BlockSum
-- ==== Proof.KernelRun.lean ====
/-
  The kernel program's result.

  The host adds the two cores' partial sums: entry (p, d) becomes the sum over the 2 cores, the 16 points of a core and
  the 256 rows of a tile of g(r + 256·(i + 16·c)), which is the sum of g over all 8192 rows taken block by block — a
  regrouping of a finite sum in a commutative monoid, so it holds for extended reals.  That is the row sum of the
  specification in the "scaled" spelling; everything after it is the common tail.
-/
import proofs.«123349_j86526411145660_2_alg».proof.Proof.KernelSum
import proofs.«123349_j86526411145660_2_alg».proof.Proof.KernelTail
import proofs.«123349_j86526411145660_2_alg».proof.Proof.LibBlockSum
import Idealize.ShloMosaic.Lib.IdealHost

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.NormSum

/-- Removing the core axis of 2 × 4 × 2048 leaves 4 × 2048. -/
theorem reduces_cores : S2x4x2048.Reduces [0] Cert.KernelIdeal.S4x2048 := by decide

/-- The index over (p, d) with core `k` put in front. -/
theorem lift_core (p : Fin 4) (d : Fin 2048) (k : Fin 2) : reduces_cores.lift (ix2 p d) k = ix3 k p d := by
  funext ax
  refine Fin.ext ?_
  match ax with
  | ⟨0, _⟩ => rfl
  | ⟨1, _⟩ => rfl
  | ⟨2, _⟩ => rfl

/-- 8192 rows are 2 cores of 16 tiles of 256 rows. -/
theorem sum_rows (f : ℕ → EReal) :
    ∑ b : Fin 8192, f b.val = ∑ cc : Fin 2, ∑ i : Fin 16, ∑ r : Fin 256, f (r.val + 256 * (i.val + 16 * cc.val)) :=
  (Cert.Lib.BlockSum.sum_fin_mul 32 256 f).trans
    (Cert.Lib.BlockSum.sum_fin_mul 2 16 fun s => ∑ e : Fin 256, f (e.val + 256 * s))

/-- The two cores' partial sums added are the row sum in the scaled spelling. -/
theorem coreSum_blockSum (x : SX.Idx → EReal) : coreSum (blockSum x) = sumScaled x := by
  funext j
  obtain ⟨p, d, rfl⟩ : ∃ (p : Fin 4) (d : Fin 2048), j = ix2 p d := ⟨j 0, j 1, eq_ix2 j⟩
  unfold coreSum
  rw [hostReduceAdd_apply, Ideal.hostReduceAdd_single _ reduces_cores, constant_apply, Ideal.ofBits_zero_f32, zero_add]
  unfold sumScaled
  have e : ∀ b : Fin 8192, x (ix2 b (col p d)) * Ideal.rsqrt (ss x b p) = term x p d b.val := fun b => by
    rw [term, dif_pos b.isLt]
  show ∑ k : Fin 2, blockSum x (reduces_cores.lift (ix2 p d) k) = ∑ b : Fin 8192, x (ix2 b (col p d)) * Ideal.rsqrt (ss x b p)
  rw [Finset.sum_congr rfl fun b _ => e b, sum_rows]
  refine Finset.sum_congr rfl fun k _ => ?_
  rw [lift_core]
  rfl

variable (m : (ℓ : Loc nD τ sig) → Buf (Elt Ideal) ℓ) (ρ : Dev nD → PrngReg)

/-- What the result buffer holds after the whole program. -/
theorem tail_value (c : Dev nD) :
    Pipeline.afterTail₀ cfgs (dats m) 0 (V0 m) [hostOps1, hostOps1_1, hostOps1_2] c main_v13
      = fromRowSum (sumScaled (m ((c : Thread nD τ).loc main_arg0))) (m ((c : Thread nD τ).loc main_arg1)) := by
  unfold Pipeline.afterTail₀
  rw [tail_v13]
  have e0 : Pipeline.withArrays (cfgs 0).spec c (V0 m c) (fun w => (dats m 0 c).arrAt w (cfgs 0).N) (Proc.devRef .tc main_v0)
      = blockSum (X m c) :=
    (Pipeline.withArrays_arr spec0 launch0.win.arr_inj c _ _ 1).trans (final_parts m c)
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  rw [e0, e1, coreSum_blockSum]

/-- The run of the kernel program: its result at the common tail of the scaled row sum, its arguments unchanged. -/
theorem run : θ_run (defs (F := Ideal)) (onTc (τ := τ) (main (F := Ideal))) ⟨m, fun _ => 0, ρ⟩ fun r => ∀ c : Dev nD,
      r.2.mem ((c.tc : Thread nD τ).loc main_v13)
          = fromRowSum (sumScaled (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v13 (Pipeline.mem_restRefs_of main_v13 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KValue

end
-- ==== Proof.RefOps.lean ====
/-
  The reference program as one straight line of host operations.

  The printed program calls three small functions (the Euclidean norm of each part of each row, the trace of a
  4 × 4 matrix, and the selection the trace uses); a call executes the callee's operations on the caller's buffers,
  so the whole program is a list of 37 operations, cut here into four stretches: the normalised row sum (the reshape,
  the norm, the division and the sum over the rows), the mean and the matrix of inner products with its entry sum,
  the trace, and the closing scalar arithmetic.  Every weakly fair execution ends with each buffer at the fold of
  those operations over the contents the program was started with.
-/
import proofs.«123349_j86526411145660_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The row sum: the reshape into rows of four parts, each part's norm, the division by it, the sum over the rows. -/
abbrev opsA : List (HloOp τ sig (Elt F)) :=
  [ reshape main_arg0 main_v0 rfl shapeCasts_S8192x8192_S8192x4x2048,
    TRef.binary (.of main_v0 : TRef sig ⟨S8192x4x2048, .f32⟩) (.of main_v0 : TRef sig ⟨S8192x4x2048, .f32⟩) main_call0.v0 mulf,
    TRef.nullary main_call0.cst (constant S_ .f32 0x00000000#32),
    TRef.binary main_call0.v0 main_call0.cst main_call0.v1 (fun x v => Host.reduceAdd x v reducesTo_S8192x4x2048_S8192x4_d2 h_S_),
    TRef.unary main_call0.v1 main_call0.v2 (broadcastInDim S8192x4x1 ![0, 1] bcast_S8192x4_S8192x4x1_0_1),
    TRef.unary main_call0.v2 main_call0.v3 Host.sqrt,
    unary main_v1 main_v2 (broadcastInDim S8192x4x2048 ![0, 1, 2] bcast_S8192x4x1_S8192x4x2048_0_1_2 : (⟨S8192x4x1, .f32⟩ : BufTy).Contents (Elt F) → (⟨S8192x4x2048, .f32⟩ : BufTy).Contents (Elt F)),
    binary main_v0 main_v2 main_v3 (Host.divf : (⟨S8192x4x2048, .f32⟩ : BufTy).Contents (Elt F) → (⟨S8192x4x2048, .f32⟩ : BufTy).Contents (Elt F) → (⟨S8192x4x2048, .f32⟩ : BufTy).Contents (Elt F)),
    nullary main_cst (constant S_ .f32 0x00000000#32),
    binary main_v3 main_cst main_v4 ((fun x v => Host.reduceAdd x v reducesTo_S8192x4x2048_S4x2048_d0 h_S_) : (⟨S8192x4x2048, .f32⟩ : BufTy).Contents (Elt F) → (⟨S_, .f32⟩ : BufTy).Contents (Elt F) → (⟨S4x2048, .f32⟩ : BufTy).Contents (Elt F)) ]

/-- The mean over the rows, its transpose, the 4 × 4 matrix of inner products and the sum of its entries. -/
abbrev opsB : List (HloOp τ sig (Elt F)) :=
  [ nullary main_cst_0 (constant S_ .f32 0x46000000#32),
    unary main_cst_0 main_v5 (broadcastInDim S4x2048 ![] bcast_S_S4x2048 : (⟨S_, .f32⟩ : BufTy).Contents (Elt F) → (⟨S4x2048, .f32⟩ : BufTy).Contents (Elt F)),
    binary main_v4 main_v5 main_v6 (Host.divf : (⟨S4x2048, .f32⟩ : BufTy).Contents (Elt F) → (⟨S4x2048, .f32⟩ : BufTy).Contents (Elt F) → (⟨S4x2048, .f32⟩ : BufTy).Contents (Elt F)),
    unary main_v6 main_v7 ((transpose S2048x4 [1, 0] · transposes_S4x2048_S2048x4_1_0) : (⟨S4x2048, .f32⟩ : BufTy).Contents (Elt F) → (⟨S2048x4, .f32⟩ : BufTy).Contents (Elt F)),
    binary main_v6 main_v7 main_v8 ((fun l r => Host.dotGeneral dot_S4x2048_S2048x4_S4x4_1_0_0_1_n_n none l r) : (⟨S4x2048, .f32⟩ : BufTy).Contents (Elt F) → (⟨S2048x4, .f32⟩ : BufTy).Contents (Elt F) → (⟨S4x4, .f32⟩ : BufTy).Contents (Elt F)),
    nullary main_cst_1 (constant S_ .f32 0x00000000#32),
    binary main_v8 main_cst_1 main_v9 ((fun x v => Host.reduceAdd x v reducesTo_S4x4_S_d0_1 h_S_) : (⟨S4x4, .f32⟩ : BufTy).Contents (Elt F) → (⟨S_, .f32⟩ : BufTy).Contents (Elt F) → (⟨S_, .f32⟩ : BufTy).Contents (Elt F)) ]

/-- The trace of the 4 × 4 matrix: the entries off the diagonal replaced by zero, then summed. -/
abbrev opsC : List (HloOp τ sig (Elt F)) :=
  [ TRef.nullary main_call1.v0 (iotaInDim S4x4 32 0),
    TRef.nullary main_call1.v1 (iotaInDim S4x4 32 1),
    TRef.nullary main_call1.c (constantI S_ 32 0#32),
    TRef.unary main_call1.c main_call1.v2 (broadcastInDim S4x4 ![] bcast_S_S4x4),
    TRef.binary main_call1.v0 main_call1.v2 main_call1.v3 addi,
    TRef.binary main_call1.v3 main_call1.v1 main_call1.v4 (cmpi .eq),
    TRef.nullary main_call1.cst (constant S_ .f32 0x00000000#32),
    TRef.unary main_call1.cst main_call1.v5 (broadcastInDim S4x4 ![] bcast_S_S4x4),
    TRef.ternary main_call1.v4 (.of main_v8 : TRef sig ⟨S4x4, .f32⟩) main_call1.v5 main_call1.call0.v0 select,
    TRef.nullary main_call1.cst_0 (constant S_ .f32 0x00000000#32),
    TRef.binary main_call1.call0.v0 main_call1.cst_0 main_call1.v7 (fun x v => Host.reduceAdd x v reducesTo_S4x4_S_d0_1 h_S_) ]

/-- The affine combination of the entry sum and the trace, times the second argument. -/
abbrev opsD : List (HloOp τ sig (Elt F)) :=
  [ nullary main_cst_2 (constant S_ .f32 0x40400000#32),
    binary main_cst_2 main_v10 main_v11 (mulf : (⟨S_, .f32⟩ : BufTy).Contents (Elt F) → (⟨S_, .f32⟩ : BufTy).Contents (Elt F) → (⟨S_, .f32⟩ : BufTy).Contents (Elt F)),
    binary main_v9 main_v11 main_v12 (subf : (⟨S_, .f32⟩ : BufTy).Contents (Elt F) → (⟨S_, .f32⟩ : BufTy).Contents (Elt F) → (⟨S_, .f32⟩ : BufTy).Contents (Elt F)),
    nullary main_cst_3 (constant S_ .f32 0x41000000#32),
    binary main_v12 main_cst_3 main_v13 (addf : (⟨S_, .f32⟩ : BufTy).Contents (Elt F) → (⟨S_, .f32⟩ : BufTy).Contents (Elt F) → (⟨S_, .f32⟩ : BufTy).Contents (Elt F)),
    nullary main_cst_4 (constant S_ .f32 0x40000000#32),
    binary main_v13 main_cst_4 main_v14 (Host.divf : (⟨S_, .f32⟩ : BufTy).Contents (Elt F) → (⟨S_, .f32⟩ : BufTy).Contents (Elt F) → (⟨S_, .f32⟩ : BufTy).Contents (Elt F)),
    unary main_v14 main_v15 (broadcastInDim S1 ![] bcast_S_S1 : (⟨S_, .f32⟩ : BufTy).Contents (Elt F) → (⟨S1, .f32⟩ : BufTy).Contents (Elt F)),
    binary main_v15 main_arg1 main_v16 (mulf : (⟨S1, .f32⟩ : BufTy).Contents (Elt F) → (⟨S1, .f32⟩ : BufTy).Contents (Elt F) → (⟨S1, .f32⟩ : BufTy).Contents (Elt F)) ]

/-- The whole program's 37 operations, in order. -/
abbrev ops : List (HloOp τ sig (Elt F)) :=
  [ reshape main_arg0 main_v0 rfl shapeCasts_S8192x8192_S8192x4x2048,
    TRef.binary (.of main_v0 : TRef sig ⟨S8192x4x2048, .f32⟩) (.of main_v0 : TRef sig ⟨S8192x4x2048, .f32⟩) main_call0.v0 mulf,
    TRef.nullary main_call0.cst (constant S_ .f32 0x00000000#32),
    TRef.binary main_call0.v0 main_call0.cst main_call0.v1 (fun x v => Host.reduceAdd x v reducesTo_S8192x4x2048_S8192x4_d2 h_S_),
    TRef.unary main_call0.v1 main_call0.v2 (broadcastInDim S8192x4x1 ![0, 1] bcast_S8192x4_S8192x4x1_0_1),
    TRef.unary main_call0.v2 main_call0.v3 Host.sqrt,
    unary main_v1 main_v2 (broadcastInDim S8192x4x2048 ![0, 1, 2] bcast_S8192x4x1_S8192x4x2048_0_1_2 : (⟨S8192x4x1, .f32⟩ : BufTy).Contents (Elt F) → (⟨S8192x4x2048, .f32⟩ : BufTy).Contents (Elt F)),
    binary main_v0 main_v2 main_v3 (Host.divf : (⟨S8192x4x2048, .f32⟩ : BufTy).Contents (Elt F) → (⟨S8192x4x2048, .f32⟩ : BufTy).Contents (Elt F) → (⟨S8192x4x2048, .f32⟩ : BufTy).Contents (Elt F)),
    nullary main_cst (constant S_ .f32 0x00000000#32),
    binary main_v3 main_cst main_v4 ((fun x v => Host.reduceAdd x v reducesTo_S8192x4x2048_S4x2048_d0 h_S_) : (⟨S8192x4x2048, .f32⟩ : BufTy).Contents (Elt F) → (⟨S_, .f32⟩ : BufTy).Contents (Elt F) → (⟨S4x2048, .f32⟩ : BufTy).Contents (Elt F)),
    nullary main_cst_0 (constant S_ .f32 0x46000000#32),
    unary main_cst_0 main_v5 (broadcastInDim S4x2048 ![] bcast_S_S4x2048 : (⟨S_, .f32⟩ : BufTy).Contents (Elt F) → (⟨S4x2048, .f32⟩ : BufTy).Contents (Elt F)),
    binary main_v4 main_v5 main_v6 (Host.divf : (⟨S4x2048, .f32⟩ : BufTy).Contents (Elt F) → (⟨S4x2048, .f32⟩ : BufTy).Contents (Elt F) → (⟨S4x2048, .f32⟩ : BufTy).Contents (Elt F)),
    unary main_v6 main_v7 ((transpose S2048x4 [1, 0] · transposes_S4x2048_S2048x4_1_0) : (⟨S4x2048, .f32⟩ : BufTy).Contents (Elt F) → (⟨S2048x4, .f32⟩ : BufTy).Contents (Elt F)),
    binary main_v6 main_v7 main_v8 ((fun l r => Host.dotGeneral dot_S4x2048_S2048x4_S4x4_1_0_0_1_n_n none l r) : (⟨S4x2048, .f32⟩ : BufTy).Contents (Elt F) → (⟨S2048x4, .f32⟩ : BufTy).Contents (Elt F) → (⟨S4x4, .f32⟩ : BufTy).Contents (Elt F)),
    nullary main_cst_1 (constant S_ .f32 0x00000000#32),
    binary main_v8 main_cst_1 main_v9 ((fun x v => Host.reduceAdd x v reducesTo_S4x4_S_d0_1 h_S_) : (⟨S4x4, .f32⟩ : BufTy).Contents (Elt F) → (⟨S_, .f32⟩ : BufTy).Contents (Elt F) → (⟨S_, .f32⟩ : BufTy).Contents (Elt F)),
    TRef.nullary main_call1.v0 (iotaInDim S4x4 32 0),
    TRef.nullary main_call1.v1 (iotaInDim S4x4 32 1),
    TRef.nullary main_call1.c (constantI S_ 32 0#32),
    TRef.unary main_call1.c main_call1.v2 (broadcastInDim S4x4 ![] bcast_S_S4x4),
    TRef.binary main_call1.v0 main_call1.v2 main_call1.v3 addi,
    TRef.binary main_call1.v3 main_call1.v1 main_call1.v4 (cmpi .eq),
    TRef.nullary main_call1.cst (constant S_ .f32 0x00000000#32),
    TRef.unary main_call1.cst main_call1.v5 (broadcastInDim S4x4 ![] bcast_S_S4x4),
    TRef.ternary main_call1.v4 (.of main_v8 : TRef sig ⟨S4x4, .f32⟩) main_call1.v5 main_call1.call0.v0 select,
    TRef.nullary main_call1.cst_0 (constant S_ .f32 0x00000000#32),
    TRef.binary main_call1.call0.v0 main_call1.cst_0 main_call1.v7 (fun x v => Host.reduceAdd x v reducesTo_S4x4_S_d0_1 h_S_),
    nullary main_cst_2 (constant S_ .f32 0x40400000#32),
    binary main_cst_2 main_v10 main_v11 (mulf : (⟨S_, .f32⟩ : BufTy).Contents (Elt F) → (⟨S_, .f32⟩ : BufTy).Contents (Elt F) → (⟨S_, .f32⟩ : BufTy).Contents (Elt F)),
    binary main_v9 main_v11 main_v12 (subf : (⟨S_, .f32⟩ : BufTy).Contents (Elt F) → (⟨S_, .f32⟩ : BufTy).Contents (Elt F) → (⟨S_, .f32⟩ : BufTy).Contents (Elt F)),
    nullary main_cst_3 (constant S_ .f32 0x41000000#32),
    binary main_v12 main_cst_3 main_v13 (addf : (⟨S_, .f32⟩ : BufTy).Contents (Elt F) → (⟨S_, .f32⟩ : BufTy).Contents (Elt F) → (⟨S_, .f32⟩ : BufTy).Contents (Elt F)),
    nullary main_cst_4 (constant S_ .f32 0x40000000#32),
    binary main_v13 main_cst_4 main_v14 (Host.divf : (⟨S_, .f32⟩ : BufTy).Contents (Elt F) → (⟨S_, .f32⟩ : BufTy).Contents (Elt F) → (⟨S_, .f32⟩ : BufTy).Contents (Elt F)),
    unary main_v14 main_v15 (broadcastInDim S1 ![] bcast_S_S1 : (⟨S_, .f32⟩ : BufTy).Contents (Elt F) → (⟨S1, .f32⟩ : BufTy).Contents (Elt F)),
    binary main_v15 main_arg1 main_v16 (mulf : (⟨S1, .f32⟩ : BufTy).Contents (Elt F) → (⟨S1, .f32⟩ : BufTy).Contents (Elt F) → (⟨S1, .f32⟩ : BufTy).Contents (Elt F)) ]

theorem ops_eq : (ops : List (HloOp τ sig (Elt F))) = opsA ++ (opsB ++ (opsC ++ opsD)) := rfl

set_option maxRecDepth 4096 in
/-- The program is that straight line: the three functions unfolded at their calls. -/
theorem main_eq (c : Dev nD) : main (F := F) c = seq ops := by
  simp only [main, fn_norm.body, fn_trace.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., binary_bufs_sub .., nullary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., binary_bufs_sub .., nullary_bufs_sub .., binary_bufs_sub .., nullary_bufs_sub .., nullary_bufs_sub .., nullary_bufs_sub .., unary_bufs_sub .., binary_bufs_sub .., binary_bufs_sub .., nullary_bufs_sub .., unary_bufs_sub .., ternary_bufs_sub .., nullary_bufs_sub .., binary_bufs_sub .., nullary_bufs_sub .., binary_bufs_sub .., binary_bufs_sub .., nullary_bufs_sub .., binary_bufs_sub .., nullary_bufs_sub .., binary_bufs_sub .., unary_bufs_sub .., binary_bufs_sub ..⟩

/-- Every weakly fair execution terminates, each buffer at the fold of the operations over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefRowSum.lean ====
/-
  The normalised row sum the reference computes, read entry by entry.

  The input `x` is an 8192 × 8192 array.  Reshaped to 8192 × 4 × 2048, its entry (b, p, k) is entry (b, 2048·p + k) of
  `x`: both sit at the same row-major position, 8192·b + 2048·p + k.  The sum of the squares over the last axis is, at
  (b, p), the sum of squares of part `p` of row `b`; inserting a unit axis, taking the square root and broadcasting
  along the last axis puts the norm of part `p` of row `b` at every (b, p, k).  The quotient is then the entry divided by
  its part's norm, and the sum over the first axis adds the quotients of one column position over all 8192 rows,
  from the initial value zero.  That is the specification's `sumDivided`.
-/
import proofs.«123349_j86526411145660_2_alg».proof.Proof.Gen.ReferenceIdeal
import proofs.«123349_j86526411145660_2_alg».proof.Proof.Spec
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The input as 8192 rows of four parts of 2048 entries. -/
def parts (x : FVec Ideal S8192x8192 .f32) : FVec Ideal S8192x4x2048 .f32 :=
  shapeCast S8192x4x2048 x shapeCasts_S8192x8192_S8192x4x2048

/-- The sum of squares of each part of each row. -/
def sumSq (x : FVec Ideal S8192x8192 .f32) : FVec Ideal S8192x4 .f32 :=
  Host.reduceAdd (F := Ideal) (mulf (parts x) (parts x)) (constant (F := Ideal) S_ .f32 0x00000000#32)
    reducesTo_S8192x4x2048_S8192x4_d2 h_S_

/-- Each part's norm, repeated along the part. -/
def norms (x : FVec Ideal S8192x8192 .f32) : FVec Ideal S8192x4x2048 .f32 :=
  broadcastInDim S8192x4x2048 ![0, 1, 2] bcast_S8192x4x1_S8192x4x2048_0_1_2
    (Host.sqrt (F := Ideal) (broadcastInDim S8192x4x1 ![0, 1] bcast_S8192x4_S8192x4x1_0_1 (sumSq x)))

/-- The reference's row sum, as its operations compose. -/
def rowSum (x : FVec Ideal S8192x8192 .f32) : FVec Ideal S4x2048 .f32 :=
  Host.reduceAdd (F := Ideal) (Host.divf (F := Ideal) (parts x) (norms x)) (constant (F := Ideal) S_ .f32 0x00000000#32)
    reducesTo_S8192x4x2048_S4x2048_d0 h_S_

theorem reduces_d2 : S8192x4x2048.Reduces [2] S8192x4 := by decide
theorem reduces_d0 : S8192x4x2048.Reduces [0] S4x2048 := by decide

/-- Entry (b, p, k) of the reshaped array is entry (b, 2048·p + k) of the input. -/
theorem parts_apply (x : FVec Ideal S8192x8192 .f32) (b : Fin 8192) (p : Fin 4) (k : Fin 2048) :
    parts x (ix3 b p k) = x (ix2 b (Cert.NormSum.col p k)) := by
  refine shapeCast_apply x _ (ix3 b p k) (ix2 b (Cert.NormSum.col p k)) ?_
  rw [Shape.rowMajor_val_two, Shape.rowMajor_val_three]
  show b.val * 8192 + (p.val * 2048 + k.val) = (b.val * 4 + p.val) * 2048 + k.val
  omega

/-- The index over (b, p) with `k` inserted on the last axis. -/
theorem lift_d2 (b : Fin 8192) (p : Fin 4) (k : Fin 2048) :
    reduces_d2.lift (ix2 b p) k = ix3 b p k :=
  funext fun a => Fin.ext (by match a with | ⟨0, _⟩ => rfl | ⟨1, _⟩ => rfl | ⟨2, _⟩ => rfl)

/-- The index over (p, k) with `b` inserted on the first axis. -/
theorem lift_d0 (p : Fin 4) (k : Fin 2048) (b : Fin 8192) :
    reduces_d0.lift (ix2 p k) b = ix3 b p k :=
  funext fun a => Fin.ext (by match a with | ⟨0, _⟩ => rfl | ⟨1, _⟩ => rfl | ⟨2, _⟩ => rfl)

/-- The sum of squares at (b, p) is the specification's. -/
theorem sumSq_apply (x : FVec Ideal S8192x8192 .f32) (b : Fin 8192) (p : Fin 4) :
    sumSq x (ix2 b p) = Cert.NormSum.ss x b p := by
  unfold sumSq
  refine (hostReduceAdd_apply _ _ _ _ _).trans ?_
  refine (Ideal.hostReduceAdd_single reducesTo_S8192x4x2048_S8192x4_d2 reduces_d2 _ _ (ix2 b p)).trans ?_
  have h0 : (constant (F := Ideal) S_ .f32 0x00000000#32) (Shape.Idx.first h_S_) = 0 := Ideal.ofBits_zero_f32
  rw [h0, zero_add]
  unfold Cert.NormSum.ss
  refine Finset.sum_congr rfl fun (k : Fin 2048) _ => ?_
  rw [lift_d2 b p k]
  show parts x (ix3 b p k) * parts x (ix3 b p k) = _
  rw [parts_apply]

/-- A 8192 × 4 array with a unit axis appended reads, at (b, p, 0), the array at (b, p). -/
theorem keepdims_apply (v : FVec Ideal S8192x4 .f32) (b : Fin 8192) (p : Fin 4) :
    broadcastInDim S8192x4x1 ![0, 1] bcast_S8192x4_S8192x4x1_0_1 v (ix3 b p (0 : Fin 1)) = v (ix2 b p) := by
  unfold broadcastInDim
  exact congrArg v (funext fun a => Fin.ext (by match a with | ⟨0, _⟩ => rfl | ⟨1, _⟩ => rfl))

/-- A 8192 × 4 × 1 array repeated along its unit axis reads, at (b, p, k), the array at (b, p, 0). -/
theorem along_apply (v : FVec Ideal S8192x4x1 .f32) (b : Fin 8192) (p : Fin 4) (k : Fin 2048) :
    broadcastInDim S8192x4x2048 ![0, 1, 2] bcast_S8192x4x1_S8192x4x2048_0_1_2 v (ix3 b p k) = v (ix3 b p (0 : Fin 1)) := by
  unfold broadcastInDim
  exact congrArg v (funext fun a => Fin.ext (by match a with | ⟨0, _⟩ => rfl | ⟨1, _⟩ => rfl | ⟨2, _⟩ => rfl))

/-- The broadcast norm at (b, p, k) is the square root of the sum of squares at (b, p). -/
theorem norms_apply (x : FVec Ideal S8192x8192 .f32) (b : Fin 8192) (p : Fin 4) (k : Fin 2048) :
    norms x (ix3 b p k) = Ideal.sqrt (Cert.NormSum.ss x b p) := by
  unfold norms
  rw [along_apply]
  show Ideal.sqrt (broadcastInDim S8192x4x1 ![0, 1] bcast_S8192x4_S8192x4x1_0_1 (sumSq x) (ix3 b p (0 : Fin 1))) = _
  rw [keepdims_apply, sumSq_apply]

/-- The reference's row sum is the sum over the rows of each entry divided by its part's norm. -/
theorem rowSum_eq (x : FVec Ideal S8192x8192 .f32) : rowSum x = Cert.NormSum.sumDivided x := by
  funext j
  obtain ⟨p, k, rfl⟩ : ∃ (p : Fin 4) (k : Fin 2048), j = ix2 p k := ⟨j 0, j 1, eq_ix2 j⟩
  unfold rowSum
  refine (hostReduceAdd_apply _ _ _ _ _).trans ?_
  refine (Ideal.hostReduceAdd_single reducesTo_S8192x4x2048_S4x2048_d0 reduces_d0 _ _ (ix2 p k)).trans ?_
  have h0 : (constant (F := Ideal) S_ .f32 0x00000000#32) (Shape.Idx.first h_S_) = 0 := Ideal.ofBits_zero_f32
  rw [h0, zero_add]
  unfold Cert.NormSum.sumDivided
  refine Finset.sum_congr rfl fun (b : Fin 8192) _ => ?_
  rw [lift_d0 p k b]
  show Ideal.div (parts x (ix3 b p k)) (norms x (ix3 b p k)) = _
  rw [parts_apply, norms_apply]

end Cert.ReferenceIdeal.RefValue

end
-- ==== Proof.RefRun.lean ====
/-
  The reference program's result, in closed form.

  The program is a straight line of 37 operations; what a buffer holds at the end is the fold of the line over the
  contents the program starts from.  The fold is read back stretch by stretch: the contents after two stretches are
  the second stretch's fold over the first's, so each stretch is read once, from arbitrary contents.

  * The first stretch leaves in its last buffer the normalised row sum of the first argument: each entry divided by
    the Euclidean norm of its part of its row, summed over the rows (the entry-by-entry reading is proved apart).
  * The second divides the row sum by the number of rows, multiplies the 4 × 2048 mean by its transpose and sums the
    sixteen inner products.
  * The third keeps the diagonal of the 4 × 4 matrix (the positions whose row number equals their column number)
    and sums it: the trace.
  * The fourth forms (entry sum − 3 · trace + 8) / 2 and multiplies it by the second argument.

  Each stretch touches neither argument, and the later stretches leave the earlier results they read in place; composing
  the four readings gives the specification's function of the two arguments.
-/
import proofs.«123349_j86526411145660_2_alg».proof.Proof.RefOps
import proofs.«123349_j86526411145660_2_alg».proof.Proof.RefRowSum
import proofs.«123349_j86526411145660_2_alg».proof.Proof.LibStretch
import proofs.«123349_j86526411145660_2_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable (W : Valuation τ sig (Elt Ideal))

/-! ## The first stretch: the normalised row sum -/

theorem opsA_v4 : after (opsA (F := Ideal)) W (main_v4 : DevRef τ sig) = rowSum (W (main_arg0 : DevRef τ sig)) := by
  simp only [opsA]
  after_results
  simp only [Cert.LibStretch.ofBuf_toBuf]
  rfl

theorem opsA_arg0 : after (opsA (F := Ideal)) W (main_arg0 : DevRef τ sig) = W (main_arg0 : DevRef τ sig) := by
  simp only [opsA]
  after_results

theorem opsA_arg1 : after (opsA (F := Ideal)) W (main_arg1 : DevRef τ sig) = W (main_arg1 : DevRef τ sig) := by
  simp only [opsA]
  after_results

/-! ## The second stretch: the mean, the inner products, their sum -/

theorem opsB_v8 : after (opsB (F := Ideal)) W (main_v8 : DevRef τ sig) = Cert.NormSum.gram (W (main_v4 : DevRef τ sig)) := by
  simp only [opsB]
  after_results
  rfl

theorem opsB_v9 :
    after (opsB (F := Ideal)) W (main_v9 : DevRef τ sig) = Cert.NormSum.total (Cert.NormSum.gram (W (main_v4 : DevRef τ sig))) := by
  simp only [opsB]
  after_results
  rfl

theorem opsB_arg0 : after (opsB (F := Ideal)) W (main_arg0 : DevRef τ sig) = W (main_arg0 : DevRef τ sig) := by
  simp only [opsB]
  after_results

theorem opsB_arg1 : after (opsB (F := Ideal)) W (main_arg1 : DevRef τ sig) = W (main_arg1 : DevRef τ sig) := by
  simp only [opsB]
  after_results

/-! ## The third stretch: the trace -/

theorem opsC_v10 : after (opsC (F := Ideal)) W (main_v10 : DevRef τ sig) = Cert.NormSum.diagSum (W (main_v8 : DevRef τ sig)) := by
  simp only [opsC]
  after_results
  simp only [Cert.LibStretch.ofBuf_toBuf]
  rfl

theorem opsC_v9 : after (opsC (F := Ideal)) W (main_v9 : DevRef τ sig) = W (main_v9 : DevRef τ sig) := by
  simp only [opsC]
  after_results

theorem opsC_arg0 : after (opsC (F := Ideal)) W (main_arg0 : DevRef τ sig) = W (main_arg0 : DevRef τ sig) := by
  simp only [opsC]
  after_results

theorem opsC_arg1 : after (opsC (F := Ideal)) W (main_arg1 : DevRef τ sig) = W (main_arg1 : DevRef τ sig) := by
  simp only [opsC]
  after_results

/-! ## The fourth stretch: the affine combination, times the second argument -/

theorem opsD_v16 :
    after (opsD (F := Ideal)) W (main_v16 : DevRef τ sig)
      = Cert.NormSum.scaled (W (main_v9 : DevRef τ sig)) (W (main_v10 : DevRef τ sig)) (W (main_arg1 : DevRef τ sig)) := by
  simp only [opsD]
  after_results
  rfl

theorem opsD_arg0 : after (opsD (F := Ideal)) W (main_arg0 : DevRef τ sig) = W (main_arg0 : DevRef τ sig) := by
  simp only [opsD]
  after_results

theorem opsD_arg1 : after (opsD (F := Ideal)) W (main_arg1 : DevRef τ sig) = W (main_arg1 : DevRef τ sig) := by
  simp only [opsD]
  after_results

/-! ## The whole line -/

/-- The result buffer after the whole line: the specification's function of the two arguments. -/
theorem ops_v16 :
    after (ops (F := Ideal)) W (main_v16 : DevRef τ sig)
      = Cert.NormSum.fromRowSum (Cert.NormSum.sumDivided (W (main_arg0 : DevRef τ sig))) (W (main_arg1 : DevRef τ sig)) := by
  rw [ops_eq, Cert.LibStretch.after_append, Cert.LibStretch.after_append, Cert.LibStretch.after_append,
    opsD_v16, opsC_v9, opsC_v10, opsC_arg1, opsB_v9, opsB_v8, opsB_arg1, opsA_v4, opsA_arg1, rowSum_eq]
  rfl

/-- The first argument is untouched. -/
theorem ops_arg0 : after (ops (F := Ideal)) W (main_arg0 : DevRef τ sig) = W (main_arg0 : DevRef τ sig) := by
  rw [ops_eq, Cert.LibStretch.after_append, Cert.LibStretch.after_append, Cert.LibStretch.after_append,
    opsD_arg0, opsC_arg0, opsB_arg0, opsA_arg0]

/-- The second argument is untouched. -/
theorem ops_arg1 : after (ops (F := Ideal)) W (main_arg1 : DevRef τ sig) = W (main_arg1 : DevRef τ sig) := by
  rw [ops_eq, Cert.LibStretch.after_append, Cert.LibStretch.after_append, Cert.LibStretch.after_append,
    opsD_arg1, opsC_arg1, opsB_arg1, opsA_arg1]

/-- On every device, from any memory with zero counters: every weakly fair execution of the reference terminates with
    the result buffer at the specification's function of the two arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v16)
          = Cert.NormSum.fromRowSum (Cert.NormSum.sumDivided (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v16).trans (ops_v16 (launchContents m c)),
      (h c main_arg0).trans (ops_arg0 (launchContents m c)),
      (h c main_arg1).trans (ops_arg1 (launchContents m c))⟩)
    (run_main (F := Ideal) m ρ)

end Cert.ReferenceIdeal.RefValue

end
-- ==== Proof.lean ====
/-
  The certificate: the kernel and its reference compute one extended real.

  Both programs read an 8192 × 8192 matrix as 8192 rows of four parts of 2048 entries, divide every part of every row
  by its Euclidean norm, sum the normalised rows, and pass the 4 × 2048 sum through one and the same tail (the mean
  over the rows, the 4 × 4 matrix of inner products of the mean's rows, its entry sum and trace, an affine
  combination, a product with the second input).

  * The kernel forms the row sum tile by tile: 2 cores × 16 tiles × 256 rows, each entry times the reciprocal square
    root of its part's sum of squares, accumulated per core and the two cores added afterwards.  Regrouping a finite
    sum is free in a commutative monoid, so this is the sum over all rows of entry · (sum of squares)^(−1/2).
  * The reference divides each entry by the square root of its part's sum of squares and sums over the rows.
  * The two quotients agree exactly where the sum of squares is positive (the top element included), for any entry.
    Where a part of a row is all zeros the reference's 0/0 and the kernel's 0 · (1/0) differ on the extended reals,
    which is why the precondition asks every part of every row to have a positive sum of squares: outside that
    domain the reference itself is undefined.  Finiteness of the inputs is not used.

  The three frames: the kernel's two are the generated frame proofs; the reference's is its run with the result
  dropped.  The idealization rewrote nothing.
-/
import proofs.«123349_j86526411145660_2_alg».proof.Defs
import proofs.«123349_j86526411145660_2_alg».proof.Proof.Gen.Kernel
import proofs.«123349_j86526411145660_2_alg».proof.Proof.Gen.Kernel.Frame
import proofs.«123349_j86526411145660_2_alg».proof.Proof.Gen.KernelIdeal
import proofs.«123349_j86526411145660_2_alg».proof.Proof.Gen.KernelIdeal.Frame
import proofs.«123349_j86526411145660_2_alg».proof.Proof.Gen.ReferenceIdeal
import proofs.«123349_j86526411145660_2_alg».proof.Proof.Gen.Pre_finite_inputs
import proofs.«123349_j86526411145660_2_alg».proof.Proof.Spec
import proofs.«123349_j86526411145660_2_alg».proof.Proof.PrePositive
import proofs.«123349_j86526411145660_2_alg».proof.Proof.KernelRun
import proofs.«123349_j86526411145660_2_alg».proof.Proof.RefRun
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.RefValue.run m ρ)

/-- No operation was rewritten on the way to the extended reals. -/
theorem preserves : Cert.preserves_Kernel_KernelIdeal := trivial

/-- Both programs end at the common tail of the normalised row sum; the two spellings of the row sum agree because the
    precondition makes every sum of squares positive. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2,
    Cert.NormSum.sumScaled_eq_sumDivided _ (Cert.Proof.PrePositive.ss_pos _ _ (hpre c))]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
